-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21_2)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_2) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x1024 : Shape := ⟨3, ![1, 4096, 1024]⟩
abbrev S2x4096x1024 : Shape := ⟨3, ![2, 4096, 1024]⟩
abbrev S1024x1024 : Shape := ⟨2, ![1024, 1024]⟩
abbrev S1024 : Shape := ⟨1, ![1024]⟩
abbrev S4096x2048 : Shape := ⟨2, ![4096, 2048]⟩
abbrev S4096 : Shape := ⟨1, ![4096]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S2x4096x1024 : S_.BroadcastsInDim S2x4096x1024 (![] : Fin 0 → Fin S2x4096x1024.rank)
  reducesTo_S2x4096x1024_S_d0_1_2 : S2x4096x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_arg11 : FVec F S4096 .f32) (main_v48 : IVec S_ 1) (main_v49 : FVec F S4096x2048 .f32) (main_v50 : FVec F S4096x2048 .f32) : IVec S_ 1 :=
  let main_v51 : IVec S4096x2048 1 := cmpf .olt main_v49 main_v50
  let main_c_19 : IVec S_ 1 := constantI S_ 1 1#1
  let main_v52 : IVec S_ 1 := (fun x v => Host.reduce IntOp.andi x v reducesTo_S4096x2048_S_d0_1 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  main_v58

def fn_part2 {F : FTy → Type} [FloatOps F] (main_arg7 : FVec F S1024x1024 .f32) (main_arg8 : FVec F S1024 .f32) (main_arg9 : FVec F S1024 .f32) (main_arg10 : FVec F S4096x2048 .f32) (main_arg11 : FVec F S4096 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S4096x2048 .f32 := Host.absf main_arg10
  let main_cst_18 : FVec F S_ .f32 := constant S_ .f32 0x7F800000#32
  let main_v50 : FVec F S4096x2048 .f32 := broadcastInDim S4096x2048 ![] bcast_S_S4096x2048 main_cst_18
  fn_part3 (F := F) main_arg11 main_v48 main_v49 main_v50

def fn_part1 {F : FTy → Type} [FloatOps F] (main_arg4 : FVec F S1024 .f32) (main_arg5 : FVec F S1024 .f32) (main_arg6 : FVec F S1024x1024 .f32) (main_arg7 : FVec F S1024x1024 .f32) (main_arg8 : FVec F S1024 .f32) (main_arg9 : FVec F S1024 .f32) (main_arg10 : FVec F S4096x2048 .f32) (main_arg11 : FVec F S4096 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1x4096x1024 .f32) (main_arg1 : FVec F S2x4096x1024 .f32) (main_arg2 : FVec F S1024x1024 .f32) (main_arg3 : FVec F S1024x1024 .f32) (main_arg4 : FVec F S1024 .f32) (main_arg5 : FVec F S1024 .f32) (main_arg6 : FVec F S1024x1024 .f32) (main_arg7 : FVec F S1024x1024 .f32) (main_arg8 : FVec F S1024 .f32) (main_arg9 : FVec F S1024 .f32) (main_arg10 : FVec F S4096x2048 .f32) (main_arg11 : FVec F S4096 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S2x4096x1024 .f32 := Host.absf main_arg1
  let main_cst_0 : FVec F S_ .f32 := constant S_ .f32 0x7F800000#32
  let main_v5 : FVec F S2x4096x1024 .f32 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_v13 main_v16
-- ==== Kernel.lean ====
abbrev S1x4096x1024 : Shape := ⟨3, ![1, 4096, 1024]⟩
abbrev S2x4096x1024 : Shape := ⟨3, ![2, 4096, 1024]⟩
abbrev S1024x1024 : Shape := ⟨2, ![1024, 1024]⟩
abbrev S1024 : Shape := ⟨1, ![1024]⟩
abbrev S4096x2048 : Shape := ⟨2, ![4096, 2048]⟩
abbrev S4096 : Shape := ⟨1, ![4096]⟩
abbrev S4096x1024 : Shape := ⟨2, ![4096, 1024]⟩
abbrev S1x1024 : Shape := ⟨2, ![1, 1024]⟩
abbrev S1x4096 : Shape := ⟨2, ![1, 4096]⟩
abbrev S4096x4096 : Shape := ⟨2, ![4096, 4096]⟩
abbrev S128x1024 : Shape := ⟨2, ![128, 1024]⟩
abbrev S128x4096 : Shape := ⟨2, ![128, 4096]⟩
abbrev S128 : Shape := ⟨1, ![128]⟩
abbrev S128x1 : Shape := ⟨2, ![128, 1]⟩

abbrev nBuf : Space → Nat
  | .hbm => 39
  | .vmem => 21
  | .smem => 0
  | _ => 0

abbrev bufTy : (tb : Table) → Fin (tcTables nBuf tb) → BufTy
  | .hbm, ⟨0, _⟩ => ⟨S1x4096x1024, .f32⟩
  | .hbm, ⟨1, _⟩ => ⟨S2x4096x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S4096x2048, .f32⟩
  | .hbm, ⟨11, _⟩ => ⟨S4096, .f32⟩
  | .hbm, ⟨12, _⟩ => ⟨S4096x1024, .f32⟩
  | .hbm, ⟨13, _⟩ => ⟨S1x4096x1024, .f32⟩
  | .hbm, ⟨14, _⟩ => ⟨S4096x1024, .f32⟩
  | .hbm, ⟨15, _⟩ => ⟨S1x4096x1024, .f32⟩
  | .hbm, ⟨16, _⟩ => ⟨S4096x1024, .f32⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .bf16⟩
  | .hbm, ⟨30, _⟩ => ⟨S4096x1024, .f32⟩
  | .hbm, ⟨31, _⟩ => ⟨S4096x1024, .bf16⟩
  | .hbm, ⟨32, _⟩ => ⟨S1x4096, .f32⟩
  | .hbm, ⟨33, _⟩ => ⟨S4096x1024, .f32⟩
  | .hbm, ⟨34, _⟩ => ⟨S4096x1024, .f32⟩
  | .hbm, ⟨35, _⟩ => ⟨S4096x4096, .f32⟩
  | .hbm, ⟨36, _⟩ => ⟨S1x4096x1024, .f32⟩
  | .hbm, ⟨37, _⟩ => ⟨S1x4096x1024, .f32⟩
  | .hbm, ⟨38, _⟩ => ⟨S2x4096x1024, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S4096x1024, .bf16⟩
  | .local _ .vmem, ⟨13, _⟩ => ⟨S4096x1024, .bf16⟩
  | .local _ .vmem, ⟨14, _⟩ => ⟨S1x4096, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x4096, .f32⟩
  | .local _ .vmem, ⟨20, _⟩ => ⟨S128x4096, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x4096 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S1x4096x1024_S4096x1024 : S1x4096x1024.ShapeCasts S4096x1024
  slices_S2x4096x1024_S1x4096x1024_0_0_0 : S2x4096x1024.Slices ![0, 0, 0] S1x4096x1024
  slices_S2x4096x1024_S1x4096x1024_1_0_0 : S2x4096x1024.Slices ![1, 0, 0] S1x4096x1024
  bitsLt_bf16_f32 : FTy.bits .bf16 < FTy.bits .f32
  shapeCasts_S1024_S1x1024 : S1024.ShapeCasts S1x1024
  slices_S4096x2048_S4096x1024_0_0 : S4096x2048.Slices ![0, 0] S4096x1024
  slices_S4096x2048_S4096x1024_0_1024 : S4096x2048.Slices ![0, 1024] S4096x1024
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  reduces_S128x4096_S128 : S128x4096.Reduces [1] S128
  shapeCasts_S128_S128x1 : S128.ShapeCasts S128x1
  broadcasts_S128x1_S128x4096 : S128x1.Broadcasts S128x4096
  inb_S128x4096_S128x4096_0_0 : ∀ a, (![0, 0] : Fin 2 → Nat) a + S128x4096.size a ≤ S128x4096.size a
  h_S128x4096 : 0 < S128x4096.numel
  bcast_S4096x1024_S1x4096x1024_1_2 : S4096x1024.BroadcastsInDim S1x4096x1024 (![1, 2] : Fin 2 → Fin S1x4096x1024.rank)
  concatenates_S1x4096x1024_S1x4096x1024_S2x4096x1024_d0 : Shape.Concatenates [S1x4096x1024, S1x4096x1024] S2x4096x1024 0
  dot_S128x1024_S1024x1024_S128x1024_1_1_0_0_n_n_wf : DotDims.WF S128x1024 S1024x1024 S128x1024 [1] [1] [0] [0] [] []
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .bf16 = 32 ∨ (Rect.block (s := S4096x1024) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .bf16 = 32 ∨ (Rect.block (s := S4096x1024) S128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .bf16 = 32 ∨ (Rect.block (s := S4096x1024) S128x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4096x1024.size a ≤ S4096x1024.size a
  hwx0_9 : ∀ i : grid0.Coords, EltTy.bits .bf16 = 32 ∨ (Rect.block (s := S4096x1024) S4096x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4096x1024.size a ≤ S4096x1024.size a
  hwx0_10 : ∀ i : grid0.Coords, EltTy.bits .bf16 = 32 ∨ (Rect.block (s := S4096x1024) S4096x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x4096.size a ≤ S1x4096.size a
  hwx0_11 : ∀ i : grid0.Coords, EltTy.bits .f32 = 32 ∨ (Rect.block (s := S1x4096) S1x4096.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x1024.size a ≤ S4096x1024.size a
  hwx0_12 : ∀ i : grid0.Coords, EltTy.bits .f32 = 32 ∨ (Rect.block (s := S4096x1024) S128x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x1024.size a ≤ S4096x1024.size a
  hwx0_13 : ∀ i : grid0.Coords, EltTy.bits .f32 = 32 ∨ (Rect.block (s := S4096x1024) S128x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x4096.size a ≤ S4096x4096.size a
  hwx0_14 : ∀ i : grid0.Coords, EltTy.bits .f32 = 32 ∨ (Rect.block (s := S4096x4096) S128x4096.size (cc0_transform_14 i) (hinb0_14 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_v5) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S4096x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S4096x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20) S1x4096.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v21_0) S128x1024.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v21_1) S128x1024.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v21_2) S128x4096.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S1x4096x1024 : Shape := ⟨3, ![1, 4096, 1024]⟩
abbrev S2x4096x1024 : Shape := ⟨3, ![2, 4096, 1024]⟩
abbrev S1024x1024 : Shape := ⟨2, ![1024, 1024]⟩
abbrev S1024 : Shape := ⟨1, ![1024]⟩
abbrev S4096x2048 : Shape := ⟨2, ![4096, 2048]⟩
abbrev S4096 : Shape := ⟨1, ![4096]⟩
abbrev S4096x1024 : Shape := ⟨2, ![4096, 1024]⟩
abbrev S1x1024 : Shape := ⟨2, ![1, 1024]⟩
abbrev S2048x4096 : Shape := ⟨2, ![2048, 4096]⟩
abbrev S4096x4096 : Shape := ⟨2, ![4096, 4096]⟩
abbrev S1x4096 : Shape := ⟨2, ![1, 4096]⟩
abbrev S_ : Shape := ⟨0, ![]⟩
abbrev S4096x1 : Shape := ⟨2, ![4096, 1]⟩

abbrev nBuf : Space → Nat
  | .hbm => 65
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S2x4096x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S4096x2048, .f32⟩
  | .hbm, ⟨11, _⟩ => ⟨S4096, .f32⟩
  | .hbm, ⟨12, _⟩ => ⟨S4096x1024, .f32⟩
  | .hbm, ⟨13, _⟩ => ⟨S1024x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S1x4096x1024, .f32⟩
  | .hbm, ⟨19, _⟩ => ⟨S4096x1024, .f32⟩
  | .hbm, ⟨20, _⟩ => ⟨S1024x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x4096x1024, .f32⟩
  | .hbm, ⟨33, _⟩ => ⟨S4096x1024, .f32⟩
  | .hbm, ⟨34, _⟩ => ⟨S1024x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1x4096x1024, .f32⟩
  | .hbm, ⟨42, _⟩ => ⟨S1x4096x1024, .f32⟩
  | .hbm, ⟨43, _⟩ => ⟨S2x4096x1024, .f32⟩
  | .hbm, ⟨44, _⟩ => ⟨S4096x2048, .f32⟩
  | .hbm, ⟨45, _⟩ => ⟨S2048x4096, .f32⟩
  | .hbm, ⟨46, _⟩ => ⟨S4096x4096, .f32⟩
  | .hbm, ⟨47, _⟩ => ⟨S1x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096x1, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1, .f32⟩
  | .hbm, ⟨63, _⟩ => ⟨S4096x4096, .f32⟩
  | .hbm, ⟨64, _⟩ => ⟨S4096x4096, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_cst : Ref sig .tc := ⟨.hbm, 50, rfl⟩
abbrev main_call0_v0 : Ref sig .tc := ⟨.hbm, 51, rfl⟩
abbrev main_call0_cst_0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_cst_1 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_v38 : Ref sig .tc := ⟨.hbm, 64, rfl⟩

abbrev nD : Nat := 1
abbrev τ : Topo := Topo.v7x

variable {F : FTy → Type} [FloatOps F]

class Facts₀ : Prop where
  shapeCasts_S1x4096x1024_S4096x1024 : S1x4096x1024.ShapeCasts S4096x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  slices_S2x4096x1024_S1x4096x1024_0_0_0 : S2x4096x1024.Slices ![0, 0, 0] S1x4096x1024
  slices_S2x4096x1024_S1x4096x1024_1_0_0 : S2x4096x1024.Slices ![1, 0, 0] S1x4096x1024
  bcast_S4096x1024_S1x4096x1024_1_2 : S4096x1024.BroadcastsInDim S1x4096x1024 (![1, 2] : Fin 2 → Fin S1x4096x1024.rank)
  concatenates_S1x4096x1024_S1x4096x1024_S2x4096x1024_d0 : Shape.Concatenates [S1x4096x1024, S1x4096x1024] S2x4096x1024 0
  concatenates_S4096x1024_S4096x1024_S4096x2048_d1 : Shape.Concatenates [S4096x1024, S4096x1024] S4096x2048 1
  transposes_S4096x2048_S2048x4096_1_0 : S4096x2048.Transposes [1, 0] S2048x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x2048_S2048x4096_S4096x4096_1_0_0_1_n_n_wf : DotDims.WF S4096x2048 S2048x4096 S4096x4096 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.Spec.lean ====
/-
  The function both programs compute, written one batch row at a time over plain `Fin`-indexed rows.

  A batch row `r` carries three input rows: `x` (the input), and the two old hidden rows. Layer 0 is
  `h0 = tanh (x·Wih0ᵀ + bih0 + hOld0·Whh0ᵀ + bhh0)`, layer 1 is the same cell fed with `h0` and the second old hidden
  row, the logits are `[x, h0]·Woutᵀ + bout` (the product over the 2048 joined columns is the sum of the products over
  the first and the last 1024 columns), and the result row is `log_softmax` of the logits: each logit less the row's
  maximum, less the logarithm of the sum of the exponentials of those differences.

  Two regroupings of sums are all the algebra there is: the two biases of a cell may be added to each other first
  (addition of extended reals is commutative and associative, so no finiteness is needed), and a sum over `Fin 2048`
  splits into the sums over its two halves.
-/
import Idealize.ShloMosaic.PureOps.Ideal
import Idealize.ShloMosaic.PureOps.Ideal.Laws
import Idealize.ShloMosaic.Lib.ValueIdx

noncomputable section

namespace Cert.RnnSpec

open Idealize.ShloMosaic Idealize.ShloMosaic.ValueIdx

abbrev SX : Shape := ⟨3, ![1, 4096, 1024]⟩
abbrev SH : Shape := ⟨3, ![2, 4096, 1024]⟩
abbrev SW : Shape := ⟨2, ![1024, 1024]⟩
abbrev SB : Shape := ⟨1, ![1024]⟩
abbrev SWo : Shape := ⟨2, ![4096, 2048]⟩
abbrev SBo : Shape := ⟨1, ![4096]⟩
abbrev SO : Shape := ⟨2, ![4096, 4096]⟩

/-- Column `k` of the first half of the 2048 joined columns. -/
def lo (k : Fin 1024) : Fin 2048 := ⟨k.val, by have := k.isLt; omega⟩
/-- Column `k` of the second half: column `1024 + k`. -/
def hi (k : Fin 1024) : Fin 2048 := ⟨1024 + k.val, by have := k.isLt; omega⟩

@[simp] theorem lo_val (k : Fin 1024) : (lo k).val = k.val := rfl
@[simp] theorem hi_val (k : Fin 1024) : (hi k).val = 1024 + k.val := rfl

/-- The inner product of two rows of length 1024. -/
def dot (x w : Fin 1024 → EReal) : EReal := ∑ k : Fin 1024, x k * w k

/-- One tanh cell at column `j`, grouped as the reference adds: `((x·wihⱼ + bihⱼ) + h·whhⱼ) + bhhⱼ`. -/
def cell (x h : Fin 1024 → EReal) (wih whh : Fin 1024 → Fin 1024 → EReal) (bih bhh : Fin 1024 → EReal)
    (j : Fin 1024) : EReal :=
  Ideal.tanh (((dot x (wih j) + bih j) + dot h (whh j)) + bhh j)

/-- The same cell with the two products added first and the two biases added to each other first. -/
theorem cell_fused (x h : Fin 1024 → EReal) (wih whh : Fin 1024 → Fin 1024 → EReal) (bih bhh : Fin 1024 → EReal)
    (j : Fin 1024) :
    Ideal.tanh ((dot x (wih j) + dot h (whh j)) + (bih j + bhh j)) = cell x h wih whh bih bhh j := by
  unfold cell
  refine congrArg Ideal.tanh ?_
  rw [add_assoc (dot x (wih j) + bih j), add_add_add_comm]

/-- A logit at column `j`: the input row against its half of the weights, the new hidden row against the other half,
    and the bias. -/
def logit (x h : Fin 1024 → EReal) (wx wh : Fin 4096 → Fin 1024 → EReal) (b : Fin 4096 → EReal) (j : Fin 4096) : EReal :=
  (dot x (wx j) + dot h (wh j)) + b j

/-- A sum of products over the 2048 joined columns is the sum over the first half plus the sum over the second. -/
theorem sum_split (f g : Fin 2048 → EReal) :
    ∑ k : Fin 2048, f k * g k
      = dot (fun k => f (lo k)) (fun k => g (lo k)) + dot (fun k => f (hi k)) (fun k => g (hi k)) := by
  have e := Fin.sum_univ_add (M := EReal) (a := 1024) (b := 1024) (fun k => f k * g k)
  refine e.trans ?_
  unfold dot
  refine congrArg₂ (· + ·) (Finset.sum_congr rfl fun k _ => ?_) (Finset.sum_congr rfl fun k _ => ?_)
  · rfl
  · rfl

/-- The largest entry of a row of 4096 logits, folded from `-∞`. -/
def rowMax (l : Fin 4096 → EReal) : EReal :=
  (Finset.univ : Finset (Fin 4096)).fold max (Ideal.ofBits .f32 0xFF800000#32) l

/-- `-∞` is neutral for `max`. -/
theorem max_negInf (y : EReal) : max (Ideal.ofBits .f32 0xFF800000#32) y = y := by
  simp [Ideal.ofBits, Ideal.ieee]

/-- `log_softmax` of a row at column `j`. -/
def logSoftmax (l : Fin 4096 → EReal) (j : Fin 4096) : EReal :=
  (l j - rowMax l) - Ideal.log (∑ k : Fin 4096, Ideal.exp (l k - rowMax l))

/-! ## The model on the argument arrays -/

section Model

variable (X : SX.Idx → EReal) (H : SH.Idx → EReal) (W2 W3 : SW.Idx → EReal) (b4 b5 : SB.Idx → EReal)
  (W6 W7 : SW.Idx → EReal) (b8 b9 : SB.Idx → EReal) (W10 : SWo.Idx → EReal) (b11 : SBo.Idx → EReal)

/-- Row `r` of the new first hidden state. -/
def H0 (r : Fin 4096) : Fin 1024 → EReal :=
  cell (fun k => X (ix3 0 r k)) (fun k => H (ix3 0 r k)) (fun j k => W2 (ix2 j k)) (fun j k => W3 (ix2 j k))
    (fun j => b4 (ix1 j)) (fun j => b5 (ix1 j))

/-- Row `r` of the new second hidden state. -/
def H1 (r : Fin 4096) : Fin 1024 → EReal :=
  cell (H0 X H W2 W3 b4 b5 r) (fun k => H (ix3 1 r k)) (fun j k => W6 (ix2 j k)) (fun j k => W7 (ix2 j k))
    (fun j => b8 (ix1 j)) (fun j => b9 (ix1 j))

/-- Row `r` of the logits. -/
def L (r : Fin 4096) : Fin 4096 → EReal :=
  logit (fun k => X (ix3 0 r k)) (H0 X H W2 W3 b4 b5 r) (fun j k => W10 (ix2 j (lo k))) (fun j k => W10 (ix2 j (hi k)))
    (fun j => b11 (ix1 j))

/-- The first result: the log-probabilities, row by row. -/
def Out : SO.Idx → EReal := fun i => logSoftmax (L X H W2 W3 b4 b5 W10 b11 (i 0)) (i 1)

/-- The second result: the two new hidden states stacked. -/
def Hid : SH.Idx → EReal := fun i =>
  if (i 0).val = 0 then H0 X H W2 W3 b4 b5 (i 1) (i 2) else H1 X H W2 W3 b4 b5 W6 W7 b8 b9 (i 1) (i 2)

theorem Out_ix2 (r j : Fin 4096) :
    Out X H W2 W3 b4 b5 W10 b11 (ix2 r j) = logSoftmax (L X H W2 W3 b4 b5 W10 b11 r) j := rfl

theorem Hid_ix3_zero (r : Fin 4096) (j : Fin 1024) :
    Hid X H W2 W3 b4 b5 W6 W7 b8 b9 (ix3 0 r j) = H0 X H W2 W3 b4 b5 r j := rfl

theorem Hid_ix3_one (r : Fin 4096) (j : Fin 1024) :
    Hid X H W2 W3 b4 b5 W6 W7 b8 b9 (ix3 1 r j) = H1 X H W2 W3 b4 b5 W6 W7 b8 b9 r j := rfl

end Model

end Cert.RnnSpec

end
-- ==== Proof.KerRows.lean ====
/-
  The kernel body's three stored values read at one entry of their block.

  The body loads a block of 128 batch rows of the input and of the two old hidden states, the whole weight matrices and
  the bias rows, and stores three blocks: the new first hidden state, the new second hidden state, and the
  log-probabilities. Each matrix product contracts the LAST axis of both operands, so entry `(p, j)` of a product is the
  inner product of row `p` of the activations with row `j` of the weights; the bias row is broadcast down the 128 rows; the
  row maximum and the row sum of exponentials are reductions along the 4096 columns, re-laid as a column and broadcast
  back along the row. Read at `(p, j)` the three stored values are the row functions of the specification applied to
  row `p` of the loaded blocks.
-/
import proofs.«100841_j6451040879094_2_alg».proof.Proof.Gen.KernelIdeal.Skeleton
import proofs.«100841_j6451040879094_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.RnnKer

open Cert.KernelIdeal Cert.KernelIdeal.Gen Cert.RnnSpec Idealize.ShloMosaic Idealize.ShloMosaic.ValueIdx

/-! ## Pointwise operations at an entry -/

theorem tanh_at {s : Shape} {φ : FTy} (a : FVec Ideal s φ) (i : s.Idx) : tanh a i = Ideal.tanh (a i) := rfl
theorem exp_at {s : Shape} {φ : FTy} (a : FVec Ideal s φ) (i : s.Idx) : exp a i = Ideal.exp (a i) := rfl
theorem log_at {s : Shape} {φ : FTy} (a : FVec Ideal s φ) (i : s.Idx) : log a i = Ideal.log (a i) := rfl

/-! ## The matrix products -/

theorem lhs_h_0 (i : S128x1024.Idx) (q : dot_S128x1024_S1024x1024_S128x1024_1_1_0_0_n_n.contr.Idx) : (dot_S128x1024_S1024x1024_S128x1024_1_1_0_0_n_n.lhsIdx i q 0).val = (i 0).val := by
  unfold DotDims.lhsIdx
  rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
  rfl
theorem lhs_h_1 (i : S128x1024.Idx) (q : dot_S128x1024_S1024x1024_S128x1024_1_1_0_0_n_n.contr.Idx) : (dot_S128x1024_S1024x1024_S128x1024_1_1_0_0_n_n.lhsIdx i q 1).val = (q ⟨0, by decide⟩).val :=
  dot_S128x1024_S1024x1024_S128x1024_1_1_0_0_n_n.lhsIdx_val_of_single rfl i q
theorem rhs_h_0 (i : S128x1024.Idx) (q : dot_S128x1024_S1024x1024_S128x1024_1_1_0_0_n_n.contr.Idx) : (dot_S128x1024_S1024x1024_S128x1024_1_1_0_0_n_n.rhsIdx i q 0).val = (i 1).val := by
  unfold DotDims.rhsIdx
  rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
  rfl
theorem rhs_h_1 (i : S128x1024.Idx) (q : dot_S128x1024_S1024x1024_S128x1024_1_1_0_0_n_n.contr.Idx) : (dot_S128x1024_S1024x1024_S128x1024_1_1_0_0_n_n.rhsIdx i q 1).val = (q ⟨0, by decide⟩).val :=
  dot_S128x1024_S1024x1024_S128x1024_1_1_0_0_n_n.rhsIdx_val_of_single rfl i q

/-- A block of 128 rows times the TRANSPOSE of a weight block, into a zero accumulator, read at `(p, j)`: the inner
    product of row `p` of the left block with row `j` of the weights. -/
theorem matmulT_h (a : FVec Ideal S128x1024 .bf16) (b : FVec Ideal S1024x1024 .bf16) (p : Fin 128) (j : Fin 1024) :
    matmul dot_S128x1024_S1024x1024_S128x1024_1_1_0_0_n_n none a b (constant (F := Ideal) S128x1024 .f32 0x00000000#32) (ix2 p j)
      = dot (fun k => a (ix2 p k)) (fun k => b (ix2 j k)) := by
  simp only [matmul]
  rw [Ideal.matmul_constant_zero_apply, ← Equiv.sum_comp (ValueIdx.contrEquiv1 dot_S128x1024_S1024x1024_S128x1024_1_1_0_0_n_n 1024 rfl rfl).symm]
  unfold dot
  refine Finset.sum_congr rfl fun k _ => ?_
  have hk := ValueIdx.contrEquiv1_symm_val dot_S128x1024_S1024x1024_S128x1024_1_1_0_0_n_n 1024 rfl rfl k
  have el : dot_S128x1024_S1024x1024_S128x1024_1_1_0_0_n_n.lhsIdx (ix2 p j) ((ValueIdx.contrEquiv1 dot_S128x1024_S1024x1024_S128x1024_1_1_0_0_n_n 1024 rfl rfl).symm k) = ix2 p k := funext fun a => Fin.ext (by
    match a with
    | ⟨0, _⟩ => exact lhs_h_0 _ _
    | ⟨1, _⟩ => exact (lhs_h_1 _ _).trans hk)
  have er : dot_S128x1024_S1024x1024_S128x1024_1_1_0_0_n_n.rhsIdx (ix2 p j) ((ValueIdx.contrEquiv1 dot_S128x1024_S1024x1024_S128x1024_1_1_0_0_n_n 1024 rfl rfl).symm k) = ix2 j k := funext fun a => Fin.ext (by
    match a with
    | ⟨0, _⟩ => exact rhs_h_0 _ _
    | ⟨1, _⟩ => exact (rhs_h_1 _ _).trans hk)
  rw [el, er]

theorem lhs_o_0 (i : S128x4096.Idx) (q : dot_S128x1024_S4096x1024_S128x4096_1_1_0_0_n_n.contr.Idx) : (dot_S128x1024_S4096x1024_S128x4096_1_1_0_0_n_n.lhsIdx i q 0).val = (i 0).val := by
  unfold DotDims.lhsIdx
  rw [dif_neg (show ¬(0 : Fin S128x1024.rank) ∈ dot_S128x1024_S4096x1024_S128x4096_1_1_0_0_n_n.lhsBatch by decide), dif_pos (show (0 : Fin S128x1024.rank) ∈ dot_S128x1024_S4096x1024_S128x4096_1_1_0_0_n_n.lhsNonContracting by decide)]
  rfl
theorem lhs_o_1 (i : S128x4096.Idx) (q : dot_S128x1024_S4096x1024_S128x4096_1_1_0_0_n_n.contr.Idx) : (dot_S128x1024_S4096x1024_S128x4096_1_1_0_0_n_n.lhsIdx i q 1).val = (q ⟨0, by decide⟩).val :=
  dot_S128x1024_S4096x1024_S128x4096_1_1_0_0_n_n.lhsIdx_val_of_single rfl i q
theorem rhs_o_0 (i : S128x4096.Idx) (q : dot_S128x1024_S4096x1024_S128x4096_1_1_0_0_n_n.contr.Idx) : (dot_S128x1024_S4096x1024_S128x4096_1_1_0_0_n_n.rhsIdx i q 0).val = (i 1).val := by
  unfold DotDims.rhsIdx
  rw [dif_neg (show ¬(0 : Fin S4096x1024.rank) ∈ dot_S128x1024_S4096x1024_S128x4096_1_1_0_0_n_n.rhsBatch by decide), dif_pos (show (0 : Fin S4096x1024.rank) ∈ dot_S128x1024_S4096x1024_S128x4096_1_1_0_0_n_n.rhsNonContracting by decide)]
  rfl
theorem rhs_o_1 (i : S128x4096.Idx) (q : dot_S128x1024_S4096x1024_S128x4096_1_1_0_0_n_n.contr.Idx) : (dot_S128x1024_S4096x1024_S128x4096_1_1_0_0_n_n.rhsIdx i q 1).val = (q ⟨0, by decide⟩).val :=
  dot_S128x1024_S4096x1024_S128x4096_1_1_0_0_n_n.rhsIdx_val_of_single rfl i q

/-- A block of 128 rows times the TRANSPOSE of a weight block, into a zero accumulator, read at `(p, j)`: the inner
    product of row `p` of the left block with row `j` of the weights. -/
theorem matmulT_o (a : FVec Ideal S128x1024 .bf16) (b : FVec Ideal S4096x1024 .bf16) (p : Fin 128) (j : Fin 4096) :
    matmul dot_S128x1024_S4096x1024_S128x4096_1_1_0_0_n_n none a b (constant (F := Ideal) S128x4096 .f32 0x00000000#32) (ix2 p j)
      = dot (fun k => a (ix2 p k)) (fun k => b (ix2 j k)) := by
  simp only [matmul]
  rw [Ideal.matmul_constant_zero_apply, ← Equiv.sum_comp (ValueIdx.contrEquiv1 dot_S128x1024_S4096x1024_S128x4096_1_1_0_0_n_n 1024 rfl rfl).symm]
  unfold dot
  refine Finset.sum_congr rfl fun k _ => ?_
  have hk := ValueIdx.contrEquiv1_symm_val dot_S128x1024_S4096x1024_S128x4096_1_1_0_0_n_n 1024 rfl rfl k
  have el : dot_S128x1024_S4096x1024_S128x4096_1_1_0_0_n_n.lhsIdx (ix2 p j) ((ValueIdx.contrEquiv1 dot_S128x1024_S4096x1024_S128x4096_1_1_0_0_n_n 1024 rfl rfl).symm k) = ix2 p k := funext fun a => Fin.ext (by
    match a with
    | ⟨0, _⟩ => exact lhs_o_0 _ _
    | ⟨1, _⟩ => exact (lhs_o_1 _ _).trans hk)
  have er : dot_S128x1024_S4096x1024_S128x4096_1_1_0_0_n_n.rhsIdx (ix2 p j) ((ValueIdx.contrEquiv1 dot_S128x1024_S4096x1024_S128x4096_1_1_0_0_n_n 1024 rfl rfl).symm k) = ix2 j k := funext fun a => Fin.ext (by
    match a with
    | ⟨0, _⟩ => exact rhs_o_0 _ _
    | ⟨1, _⟩ => exact (rhs_o_1 _ _).trans hk)
  rw [el, er]

/-! ## Columns: a vector of 128 row values as a [128, 1] column, and that column broadcast along the row -/

theorem col_cast (v : (⟨1, ![128]⟩ : Shape).Idx → EReal) (h : (⟨1, ![128]⟩ : Shape).ShapeCasts ⟨2, ![128, 1]⟩) (p : Fin 128) (u : Fin 1) :
    shapeCast ⟨2, ![128, 1]⟩ v h (ix2 p u) = v (ix1 p) :=
  shapeCast_apply v h _ _ (by
    have hu : u.val = 0 := by omega
    rw [Shape.rowMajor_val_two, Shape.rowMajor_val_one]
    show p.val = p.val * 1 + u.val
    omega)

theorem col_bcast (w : (⟨2, ![128, 1]⟩ : Shape).Idx → EReal) (h : (⟨2, ![128, 1]⟩ : Shape).Broadcasts ⟨2, ![128, 4096]⟩)
    (p : Fin 128) (j : Fin 4096) : broadcastTo ⟨2, ![128, 4096]⟩ w h (ix2 p j) = w (ix2 p (0 : Fin 1)) := by
  refine broadcastTo_apply w h (ix2 p j) (ix2 p (0 : Fin 1)) fun ax => ?_
  match ax with
  | ⟨0, _⟩ => show p.val = if (128 : Nat) = 1 then 0 else p.val; rw [if_neg (by decide)]
  | ⟨1, _⟩ => rfl

/-! ## Reductions along the row -/

/-- The reduced index `p` with column `k` put back is `(p, k)`. -/
theorem lift_row (h : S128x4096.Reduces [1] S128) (p : Fin 128) (k : Fin 4096) : h.lift (ix1 p) k = ix2 p k := by
  funext c; apply Fin.ext
  fin_cases c <;> rfl

theorem rowSum_at (src : FVec Ideal S128x4096 .f32) (hφ : FKind.Formats .f32)
    (hacc : (0x00000000#32 : BitVec 32) = FKind.add.neutral .f32 hφ) (p : Fin 128) :
    multiReduction (F := Ideal) .add [1] S128 src 0x00000000#32 reduces_S128x4096_S128 hφ hacc (ix1 p)
      = ∑ k : Fin 4096, src (ix2 p k) := by
  refine (Ideal.multiReduction_add_single src 0x00000000#32 reduces_S128x4096_S128 hφ hacc (ix1 p)).trans ?_
  exact Finset.sum_congr rfl fun k _ => congrArg src (lift_row _ p k)

theorem rowMax_at (src : FVec Ideal S128x4096 .f32) (hφ : FKind.Formats .f32)
    (hacc : (0xFF800000#32 : BitVec 32) = FKind.maximumf.neutral .f32 hφ) (p : Fin 128) :
    multiReduction (F := Ideal) .maximumf [1] S128 src 0xFF800000#32 reduces_S128x4096_S128 hφ hacc (ix1 p)
      = rowMax (fun k => src (ix2 p k)) := by
  refine (Ideal.multiReduction_maximumf_single src 0xFF800000#32 reduces_S128x4096_S128 hφ hacc (ix1 p)).trans ?_
  unfold rowMax
  have hf : (src ∘ reduces_S128x4096_S128.lift (ix1 p)) = fun k : Fin 4096 => src (ix2 p k) :=
    funext fun k => congrArg src (lift_row _ p k)
  exact congrArg (fun f => Finset.fold max (Ideal.ofBits .f32 0xFF800000#32) f (Finset.univ : Finset (Fin 4096))) hf

/-! ## log_softmax of a block, row by row -/

/-- The body's log_softmax of a [128, 4096] block of logits, as one function of the block. -/
def lsmBlock (x : FVec Ideal S128x4096 .f32) : FVec Ideal S128x4096 .f32 :=
  have v44 : FVec Ideal S128 .f32 := multiReduction .maximumf [1] S128 x 0xFF800000#32 reduces_S128x4096_S128 (.inl rfl) rfl
  have v45 : FVec Ideal S128x1 .f32 := shapeCast S128x1 v44 shapeCasts_S128_S128x1
  have v46 : FVec Ideal S128x4096 .f32 := broadcastTo S128x4096 v45 broadcasts_S128x1_S128x4096
  have v47 : FVec Ideal S128x4096 .f32 := subf x v46
  have v48 : FVec Ideal S128x4096 .f32 := exp v47
  have v49 : FVec Ideal S128 .f32 := multiReduction .add [1] S128 v48 0x00000000#32 reduces_S128x4096_S128 (.inl rfl) rfl
  have v50 : FVec Ideal S128x1 .f32 := shapeCast S128x1 v49 shapeCasts_S128_S128x1
  have v51 : FVec Ideal S128x1 .f32 := log v50
  have v52 : FVec Ideal S128x4096 .f32 := broadcastTo S128x4096 v51 broadcasts_S128x1_S128x4096
  subf v47 v52

theorem lsmBlock_at (x : FVec Ideal S128x4096 .f32) (p : Fin 128) (j : Fin 4096) :
    lsmBlock x (ix2 p j) = logSoftmax (fun k => x (ix2 p k)) j := by
  have hmax : ∀ j' : Fin 4096,
      broadcastTo S128x4096 (shapeCast S128x1 (multiReduction (F := Ideal) .maximumf [1] S128 x 0xFF800000#32 reduces_S128x4096_S128 (.inl rfl) rfl)
        shapeCasts_S128_S128x1) broadcasts_S128x1_S128x4096 (ix2 p j') = rowMax (fun k => x (ix2 p k)) := fun j' =>
    (col_bcast _ _ p j').trans ((col_cast _ _ p 0).trans (rowMax_at x _ _ p))
  unfold lsmBlock logSoftmax
  dsimp only
  rw [subf_apply, subf_apply, hmax j, col_bcast, log_at, col_cast]
  refine congrArg (fun z => (x (ix2 p j) - rowMax (fun k => x (ix2 p k))) - Ideal.log z) ?_
  refine (rowSum_at _ _ _ p).trans ?_
  refine Finset.sum_congr rfl fun k _ => ?_
  rw [exp_at, subf_apply, hmax k]

/-! ## The three stored values at `(p, j)` -/

theorem pay3_at (v0 v2 : FVec Ideal S128x1024 .bf16) (v6 v9 : FVec Ideal S1024x1024 .bf16) (v13 : FVec Ideal S1x1024 .f32)
    (p : Fin 128) (j : Fin 1024) :
    k0_pay3 (F := Ideal) v0 v2 v6 v9 v13 (ix2 p j)
      = Ideal.tanh ((dot (fun k => v0 (ix2 p k)) (fun k => v6 (ix2 j k)) + dot (fun k => v2 (ix2 p k)) (fun k => v9 (ix2 j k)))
          + v13 (ix2 (0 : Fin 1) j)) := by
  unfold k0_pay3 k0_pay2
  try dsimp only
  simp only [shapeCast_self]
  rw [tanh_at, addf_apply, addf_apply, matmulT_h, matmulT_h, broadcastTo_1b_ab_apply]

/-- The narrowing of the first hidden block before it feeds the later products changes nothing at the ideal values. -/
theorem pay4_at (v0 v2 : FVec Ideal S128x1024 .bf16) (v6 v9 : FVec Ideal S1024x1024 .bf16) (v13 : FVec Ideal S1x1024 .f32)
    (i : S128x1024.Idx) : k0_pay4 (F := Ideal) v0 v2 v6 v9 v13 i = k0_pay3 (F := Ideal) v0 v2 v6 v9 v13 i := rfl

theorem pay5_at (v0 v2 v4 : FVec Ideal S128x1024 .bf16) (v6 v9 : FVec Ideal S1024x1024 .bf16) (v13 : FVec Ideal S1x1024 .f32)
    (v20 v23 : FVec Ideal S1024x1024 .bf16) (v27 : FVec Ideal S1x1024 .f32) (p : Fin 128) (j : Fin 1024) :
    k0_pay5 (F := Ideal) v0 v2 v4 v6 v9 v13 v20 v23 v27 (ix2 p j)
      = Ideal.tanh ((dot (fun k => k0_pay3 (F := Ideal) v0 v2 v6 v9 v13 (ix2 p k)) (fun k => v20 (ix2 j k))
            + dot (fun k => v4 (ix2 p k)) (fun k => v23 (ix2 j k)))
          + v27 (ix2 (0 : Fin 1) j)) := by
  unfold k0_pay5
  try dsimp only
  simp only [shapeCast_self]
  rw [tanh_at, addf_apply, addf_apply, matmulT_h, matmulT_h, broadcastTo_1b_ab_apply]
  simp only [pay4_at]

/-- The logits block of the body, as one function of its loads. -/
def logitBlock (v1 v19 : FVec Ideal S128x1024 .bf16) (v33 v36 : FVec Ideal S4096x1024 .bf16) (v40 : FVec Ideal S1x4096 .f32) :
    FVec Ideal S128x4096 .f32 :=
  addf (addf (matmul dot_S128x1024_S4096x1024_S128x4096_1_1_0_0_n_n none v1 (shapeCast S4096x1024 v33 shapeCasts_S4096x1024_S4096x1024) (constant S128x4096 .f32 0x00000000#32))
      (matmul dot_S128x1024_S4096x1024_S128x4096_1_1_0_0_n_n none v19 (shapeCast S4096x1024 v36 shapeCasts_S4096x1024_S4096x1024) (constant S128x4096 .f32 0x00000000#32)))
    (broadcastTo S128x4096 (shapeCast S1x4096 v40 shapeCasts_S1x4096_S1x4096) broadcasts_S1x4096_S128x4096)

theorem logitBlock_at (v1 v19 : FVec Ideal S128x1024 .bf16) (v33 v36 : FVec Ideal S4096x1024 .bf16) (v40 : FVec Ideal S1x4096 .f32)
    (p : Fin 128) (j : Fin 4096) :
    logitBlock v1 v19 v33 v36 v40 (ix2 p j)
      = logit (fun k => v1 (ix2 p k)) (fun k => v19 (ix2 p k)) (fun j k => v33 (ix2 j k)) (fun j k => v36 (ix2 j k))
          (fun j => v40 (ix2 (0 : Fin 1) j)) j := by
  unfold logitBlock logit
  simp only [shapeCast_self]
  rw [addf_apply, addf_apply, matmulT_o, matmulT_o, broadcastTo_1b_ab_apply]

theorem pay1_eq (v1 v19 : FVec Ideal S128x1024 .bf16) (v33 v36 : FVec Ideal S4096x1024 .bf16) (v40 : FVec Ideal S1x4096 .f32) :
    k0_pay1 (F := Ideal) v1 v19 v33 v36 v40 = lsmBlock (logitBlock v1 v19 v33 v36 v40) := rfl

theorem pay1_at (v1 v19 : FVec Ideal S128x1024 .bf16) (v33 v36 : FVec Ideal S4096x1024 .bf16) (v40 : FVec Ideal S1x4096 .f32)
    (p : Fin 128) (j : Fin 4096) :
    k0_pay1 (F := Ideal) v1 v19 v33 v36 v40 (ix2 p j)
      = logSoftmax (logit (fun k => v1 (ix2 p k)) (fun k => v19 (ix2 p k)) (fun j k => v33 (ix2 j k)) (fun j k => v36 (ix2 j k))
          (fun j => v40 (ix2 (0 : Fin 1) j))) j := by
  rw [pay1_eq, lsmBlock_at]
  exact congrArg (fun l => logSoftmax l j) (funext fun k => logitBlock_at v1 v19 v33 v36 v40 p k)

end Cert.RnnKer

end
-- ==== Proof.KerArrays.lean ====
/-
  What the launch finds in each of the twelve input arrays of the kernel, as a function of the program's arguments, read at
  an index.

  Before the launch the host code drops the leading unit axis of the input, takes the two layers of the old hidden state
  apart, adds the two bias vectors of each cell and lays the sums (and the output bias) out as one row, and cuts the output
  weights into their first and last 1024 columns. (Narrowing to sixteen bits changes nothing at the ideal values.)
-/
import proofs.«100841_j6451040879094_2_alg».proof.Proof.Gen.KernelIdeal.Frame
import proofs.«100841_j6451040879094_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.RnnKer

open Cert.KernelIdeal Cert.KernelIdeal.Gen Cert.RnnSpec Idealize.ShloMosaic Idealize.ShloMosaic.TcCoe Idealize.ShloMosaic.ValueIdx
  Idealize.SL.Sem Idealize.ShloMosaic.StableHlo

variable (m : (ℓ : Loc nD τ sig) → Buf (Elt Ideal) ℓ)

/-! ## The twelve argument arrays, at their literal shapes -/

abbrev aX (c : Dev nD) : SX.Idx → EReal := m ((c.tc : Thread nD τ).loc main_arg0)
abbrev aH (c : Dev nD) : SH.Idx → EReal := m ((c.tc : Thread nD τ).loc main_arg1)
abbrev aW2 (c : Dev nD) : SW.Idx → EReal := m ((c.tc : Thread nD τ).loc main_arg2)
abbrev aW3 (c : Dev nD) : SW.Idx → EReal := m ((c.tc : Thread nD τ).loc main_arg3)
abbrev ab4 (c : Dev nD) : SB.Idx → EReal := m ((c.tc : Thread nD τ).loc main_arg4)
abbrev ab5 (c : Dev nD) : SB.Idx → EReal := m ((c.tc : Thread nD τ).loc main_arg5)
abbrev aW6 (c : Dev nD) : SW.Idx → EReal := m ((c.tc : Thread nD τ).loc main_arg6)
abbrev aW7 (c : Dev nD) : SW.Idx → EReal := m ((c.tc : Thread nD τ).loc main_arg7)
abbrev ab8 (c : Dev nD) : SB.Idx → EReal := m ((c.tc : Thread nD τ).loc main_arg8)
abbrev ab9 (c : Dev nD) : SB.Idx → EReal := m ((c.tc : Thread nD τ).loc main_arg9)
abbrev aW10 (c : Dev nD) : SWo.Idx → EReal := m ((c.tc : Thread nD τ).loc main_arg10)
abbrev ab11 (c : Dev nD) : SBo.Idx → EReal := m ((c.tc : Thread nD τ).loc main_arg11)

/-! ## The arrays at the launch -/

theorem arr_x (c : Dev nD) : @Eq (S4096x1024.Idx → EReal) (V m c main_v5) (truncf (F := Ideal) (s := _) (φ := .f32) .bf16 (shapeCast S4096x1024 (aX m c) shapeCasts_S1x4096x1024_S4096x1024) bitsLt_bf16_f32) := by
  show StableHlo.after hostOps0 (fun b => m (c, b)) (Proc.devRef .tc main_v5) = _
  after_results
  try rfl

theorem arr_h0 (c : Dev nD) : @Eq (S4096x1024.Idx → EReal) (V m c main_v6) (truncf (F := Ideal) (s := _) (φ := .f32) .bf16 (shapeCast S4096x1024 (extractStridedSlice S1x4096x1024 ![0, 0, 0] (aH m c) slices_S2x4096x1024_S1x4096x1024_0_0_0) shapeCasts_S1x4096x1024_S4096x1024) bitsLt_bf16_f32) := by
  show StableHlo.after hostOps0 (fun b => m (c, b)) (Proc.devRef .tc main_v6) = _
  after_results
  try rfl

theorem arr_h1 (c : Dev nD) : @Eq (S4096x1024.Idx → EReal) (V m c main_v7) (truncf (F := Ideal) (s := _) (φ := .f32) .bf16 (shapeCast S4096x1024 (extractStridedSlice S1x4096x1024 ![1, 0, 0] (aH m c) slices_S2x4096x1024_S1x4096x1024_1_0_0) shapeCasts_S1x4096x1024_S4096x1024) bitsLt_bf16_f32) := by
  show StableHlo.after hostOps0 (fun b => m (c, b)) (Proc.devRef .tc main_v7) = _
  after_results
  try rfl

theorem arr_w2 (c : Dev nD) : @Eq (S1024x1024.Idx → EReal) (V m c main_v8) (truncf (F := Ideal) (s := _) (φ := .f32) .bf16 (aW2 m c) bitsLt_bf16_f32) := by
  show StableHlo.after hostOps0 (fun b => m (c, b)) (Proc.devRef .tc main_v8) = _
  after_results
  try rfl

theorem arr_w3 (c : Dev nD) : @Eq (S1024x1024.Idx → EReal) (V m c main_v9) (truncf (F := Ideal) (s := _) (φ := .f32) .bf16 (aW3 m c) bitsLt_bf16_f32) := by
  show StableHlo.after hostOps0 (fun b => m (c, b)) (Proc.devRef .tc main_v9) = _
  after_results
  try rfl

theorem arr_b0 (c : Dev nD) : @Eq (S1x1024.Idx → EReal) (V m c main_v13) (shapeCast S1x1024 (addf (F := Ideal) (s := S1024) (φ := .f32) (ab4 m c) (ab5 m c)) shapeCasts_S1024_S1x1024) := by
  show StableHlo.after hostOps0 (fun b => m (c, b)) (Proc.devRef .tc main_v13) = _
  after_results
  try rfl

theorem arr_w6 (c : Dev nD) : @Eq (S1024x1024.Idx → EReal) (V m c main_v10) (truncf (F := Ideal) (s := _) (φ := .f32) .bf16 (aW6 m c) bitsLt_bf16_f32) := by
  show StableHlo.after hostOps0 (fun b => m (c, b)) (Proc.devRef .tc main_v10) = _
  after_results
  try rfl

theorem arr_w7 (c : Dev nD) : @Eq (S1024x1024.Idx → EReal) (V m c main_v11) (truncf (F := Ideal) (s := _) (φ := .f32) .bf16 (aW7 m c) bitsLt_bf16_f32) := by
  show StableHlo.after hostOps0 (fun b => m (c, b)) (Proc.devRef .tc main_v11) = _
  after_results
  try rfl

theorem arr_b1 (c : Dev nD) : @Eq (S1x1024.Idx → EReal) (V m c main_v15) (shapeCast S1x1024 (addf (F := Ideal) (s := S1024) (φ := .f32) (ab8 m c) (ab9 m c)) shapeCasts_S1024_S1x1024) := by
  show StableHlo.after hostOps0 (fun b => m (c, b)) (Proc.devRef .tc main_v15) = _
  after_results
  try rfl

theorem arr_wx (c : Dev nD) : @Eq (S4096x1024.Idx → EReal) (V m c main_v17) (truncf (F := Ideal) (s := _) (φ := .f32) .bf16 (extractStridedSlice S4096x1024 ![0, 0] (aW10 m c) slices_S4096x2048_S4096x1024_0_0) bitsLt_bf16_f32) := by
  show StableHlo.after hostOps0 (fun b => m (c, b)) (Proc.devRef .tc main_v17) = _
  after_results
  try rfl

theorem arr_wh (c : Dev nD) : @Eq (S4096x1024.Idx → EReal) (V m c main_v19) (truncf (F := Ideal) (s := _) (φ := .f32) .bf16 (extractStridedSlice S4096x1024 ![0, 1024] (aW10 m c) slices_S4096x2048_S4096x1024_0_1024) bitsLt_bf16_f32) := by
  show StableHlo.after hostOps0 (fun b => m (c, b)) (Proc.devRef .tc main_v19) = _
  after_results
  try rfl

theorem arr_bo (c : Dev nD) : @Eq (S1x4096.Idx → EReal) (V m c main_v20) (shapeCast S1x4096 (ab11 m c) shapeCasts_S4096_S1x4096) := by
  show StableHlo.after hostOps0 (fun b => m (c, b)) (Proc.devRef .tc main_v20) = _
  after_results
  try rfl

/-! ## The same, at an index -/

theorem arr_x_at (c : Dev nD) (r : Fin 4096) (k : Fin 1024) :
    (V m c main_v5 : S4096x1024.Idx → EReal) (ix2 r k) = aX m c (ix3 0 r k) := by
  rw [arr_x]
  exact shapeCast_1ab_ab_apply (aX m c) shapeCasts_S1x4096x1024_S4096x1024 r k

theorem arr_h0_at (c : Dev nD) (r : Fin 4096) (k : Fin 1024) :
    (V m c main_v6 : S4096x1024.Idx → EReal) (ix2 r k) = aH m c (ix3 0 r k) := by
  rw [arr_h0]
  refine (shapeCast_1ab_ab_apply (extractStridedSlice S1x4096x1024 ![0, 0, 0] (aH m c) slices_S2x4096x1024_S1x4096x1024_0_0_0) shapeCasts_S1x4096x1024_S4096x1024 r k).trans ?_
  exact extractStridedSlice_apply ![0, 0, 0] (aH m c) slices_S2x4096x1024_S1x4096x1024_0_0_0 (ix3 (0 : Fin 1) r k) (ix3 (0 : Fin 2) r k) (fun a => by
    match a with
    | ⟨0, _⟩ => rfl
    | ⟨1, _⟩ => exact (Nat.zero_add _).symm
    | ⟨2, _⟩ => exact (Nat.zero_add _).symm)

theorem arr_h1_at (c : Dev nD) (r : Fin 4096) (k : Fin 1024) :
    (V m c main_v7 : S4096x1024.Idx → EReal) (ix2 r k) = aH m c (ix3 1 r k) := by
  rw [arr_h1]
  refine (shapeCast_1ab_ab_apply (extractStridedSlice S1x4096x1024 ![1, 0, 0] (aH m c) slices_S2x4096x1024_S1x4096x1024_1_0_0) shapeCasts_S1x4096x1024_S4096x1024 r k).trans ?_
  exact extractStridedSlice_apply ![1, 0, 0] (aH m c) slices_S2x4096x1024_S1x4096x1024_1_0_0 (ix3 (0 : Fin 1) r k) (ix3 (1 : Fin 2) r k) (fun a => by
    match a with
    | ⟨0, _⟩ => rfl
    | ⟨1, _⟩ => exact (Nat.zero_add _).symm
    | ⟨2, _⟩ => exact (Nat.zero_add _).symm)

theorem arr_w2_at (c : Dev nD) (i : S1024x1024.Idx) : (V m c main_v8 : S1024x1024.Idx → EReal) i = aW2 m c i :=
  congrFun (arr_w2 m c) i
theorem arr_w3_at (c : Dev nD) (i : S1024x1024.Idx) : (V m c main_v9 : S1024x1024.Idx → EReal) i = aW3 m c i :=
  congrFun (arr_w3 m c) i
theorem arr_w6_at (c : Dev nD) (i : S1024x1024.Idx) : (V m c main_v10 : S1024x1024.Idx → EReal) i = aW6 m c i :=
  congrFun (arr_w6 m c) i
theorem arr_w7_at (c : Dev nD) (i : S1024x1024.Idx) : (V m c main_v11 : S1024x1024.Idx → EReal) i = aW7 m c i :=
  congrFun (arr_w7 m c) i

theorem arr_b0_at (c : Dev nD) (j : Fin 1024) :
    (V m c main_v13 : S1x1024.Idx → EReal) (ix2 (0 : Fin 1) j) = ab4 m c (ix1 j) + ab5 m c (ix1 j) := by
  rw [arr_b0]
  exact shapeCast_a_1a_apply (addf (F := Ideal) (s := S1024) (φ := .f32) (ab4 m c) (ab5 m c)) shapeCasts_S1024_S1x1024 0 j

theorem arr_b1_at (c : Dev nD) (j : Fin 1024) :
    (V m c main_v15 : S1x1024.Idx → EReal) (ix2 (0 : Fin 1) j) = ab8 m c (ix1 j) + ab9 m c (ix1 j) := by
  rw [arr_b1]
  exact shapeCast_a_1a_apply (addf (F := Ideal) (s := S1024) (φ := .f32) (ab8 m c) (ab9 m c)) shapeCasts_S1024_S1x1024 0 j

theorem arr_wx_at (c : Dev nD) (j : Fin 4096) (k : Fin 1024) :
    (V m c main_v17 : S4096x1024.Idx → EReal) (ix2 j k) = aW10 m c (ix2 j (lo k)) := by
  rw [arr_wx]
  exact slice2_axis1_apply 0 (aW10 m c) slices_S4096x2048_S4096x1024_0_0 j k (lo k) (by show k.val = 0 + k.val; omega)

theorem arr_wh_at (c : Dev nD) (j : Fin 4096) (k : Fin 1024) :
    (V m c main_v19 : S4096x1024.Idx → EReal) (ix2 j k) = aW10 m c (ix2 j (hi k)) := by
  rw [arr_wh]
  exact slice2_axis1_apply 1024 (aW10 m c) slices_S4096x2048_S4096x1024_0_1024 j k (hi k) rfl

theorem arr_bo_at (c : Dev nD) (j : Fin 4096) :
    (V m c main_v20 : S1x4096.Idx → EReal) (ix2 (0 : Fin 1) j) = ab11 m c (ix1 j) := by
  rw [arr_bo]
  exact shapeCast_a_1a_apply (ab11 m c) shapeCasts_S4096_S1x4096 0 j

end Cert.RnnKer

end
-- ==== Proof.KerBlocks.lean ====
/-
  Each input window's block at a grid point, read at an entry, as an entry of the program's arguments.

  The three activation windows step with the grid — block `t` starts at row `128 t` — and the nine weight and bias windows
  sit at block `(0, 0)` throughout; an entry `y` of a block is the array's entry at `block index × block size + y`
  on each axis.
-/
import proofs.«100841_j6451040879094_2_alg».proof.Proof.KerArrays

noncomputable section

namespace Cert.RnnKer

open Cert.KernelIdeal Cert.KernelIdeal.Gen Cert.RnnSpec Idealize.ShloMosaic Idealize.ShloMosaic.TcCoe Idealize.ShloMosaic.ValueIdx
  Idealize.SL.Sem

variable (m : (ℓ : Loc nD τ sig) → Buf (Elt Ideal) ℓ)

theorem idx0 : ∀ t : Fin cfg0.N, win0_0.index t (0 : Fin 2) = t.val ∧ win0_0.index t (1 : Fin 2) = 0 :=
  (by decide +kernel : ∀ t : Fin grid0.N, _)

theorem blk_x (c : Dev nD) (t : Fin cfg0.N) (p : Fin 128) (k : Fin 1024) (r : Fin 4096) (hr : r.val = 128 * t.val + p.val) :
    (iblk m c 0 t : S128x1024.Idx → EReal) (ix2 p k) = aX m c (ix3 0 r k) := by
  refine Eq.trans ?_ (arr_x_at m c r k)
  unfold iblk
  rw [View.read_apply]
  show V m c main_v5 _ = V m c main_v5 _
  refine congrArg (V m c main_v5) (funext fun a => Fin.ext ?_)
  obtain ⟨e0, e1⟩ := idx0 t
  match a with
  | ⟨0, _⟩ => show win0_0.index t (0 : Fin 2) * 128 + 1 * p.val = r.val; rw [e0, hr]; omega
  | ⟨1, _⟩ => show win0_0.index t (1 : Fin 2) * 1024 + 1 * k.val = k.val; rw [e1]; omega

theorem idx1 : ∀ t : Fin cfg0.N, win0_1.index t (0 : Fin 2) = t.val ∧ win0_1.index t (1 : Fin 2) = 0 :=
  (by decide +kernel : ∀ t : Fin grid0.N, _)

theorem blk_h0 (c : Dev nD) (t : Fin cfg0.N) (p : Fin 128) (k : Fin 1024) (r : Fin 4096) (hr : r.val = 128 * t.val + p.val) :
    (iblk m c 1 t : S128x1024.Idx → EReal) (ix2 p k) = aH m c (ix3 0 r k) := by
  refine Eq.trans ?_ (arr_h0_at m c r k)
  unfold iblk
  rw [View.read_apply]
  show V m c main_v6 _ = V m c main_v6 _
  refine congrArg (V m c main_v6) (funext fun a => Fin.ext ?_)
  obtain ⟨e0, e1⟩ := idx1 t
  match a with
  | ⟨0, _⟩ => show win0_1.index t (0 : Fin 2) * 128 + 1 * p.val = r.val; rw [e0, hr]; omega
  | ⟨1, _⟩ => show win0_1.index t (1 : Fin 2) * 1024 + 1 * k.val = k.val; rw [e1]; omega

theorem idx2 : ∀ t : Fin cfg0.N, win0_2.index t (0 : Fin 2) = t.val ∧ win0_2.index t (1 : Fin 2) = 0 :=
  (by decide +kernel : ∀ t : Fin grid0.N, _)

theorem blk_h1 (c : Dev nD) (t : Fin cfg0.N) (p : Fin 128) (k : Fin 1024) (r : Fin 4096) (hr : r.val = 128 * t.val + p.val) :
    (iblk m c 2 t : S128x1024.Idx → EReal) (ix2 p k) = aH m c (ix3 1 r k) := by
  refine Eq.trans ?_ (arr_h1_at m c r k)
  unfold iblk
  rw [View.read_apply]
  show V m c main_v7 _ = V m c main_v7 _
  refine congrArg (V m c main_v7) (funext fun a => Fin.ext ?_)
  obtain ⟨e0, e1⟩ := idx2 t
  match a with
  | ⟨0, _⟩ => show win0_2.index t (0 : Fin 2) * 128 + 1 * p.val = r.val; rw [e0, hr]; omega
  | ⟨1, _⟩ => show win0_2.index t (1 : Fin 2) * 1024 + 1 * k.val = k.val; rw [e1]; omega

theorem idx3 : ∀ t : Fin cfg0.N, win0_3.index t (0 : Fin 2) = 0 ∧ win0_3.index t (1 : Fin 2) = 0 :=
  (by decide +kernel : ∀ t : Fin grid0.N, _)

theorem blk_w2 (c : Dev nD) (t : Fin cfg0.N) (j k : Fin 1024) :
    (iblk m c 3 t : S1024x1024.Idx → EReal) (ix2 j k) = aW2 m c (ix2 j k) := by
  refine Eq.trans ?_ (arr_w2_at m c (ix2 j k))
  unfold iblk
  rw [View.read_apply]
  show V m c main_v8 _ = V m c main_v8 _
  refine congrArg (V m c main_v8) (funext fun a => Fin.ext ?_)
  obtain ⟨e0, e1⟩ := idx3 t
  match a with
  | ⟨0, _⟩ => show win0_3.index t (0 : Fin 2) * 1024 + 1 * j.val = j.val; rw [e0]; omega
  | ⟨1, _⟩ => show win0_3.index t (1 : Fin 2) * 1024 + 1 * k.val = k.val; rw [e1]; omega

theorem idx4 : ∀ t : Fin cfg0.N, win0_4.index t (0 : Fin 2) = 0 ∧ win0_4.index t (1 : Fin 2) = 0 :=
  (by decide +kernel : ∀ t : Fin grid0.N, _)

theorem blk_w3 (c : Dev nD) (t : Fin cfg0.N) (j k : Fin 1024) :
    (iblk m c 4 t : S1024x1024.Idx → EReal) (ix2 j k) = aW3 m c (ix2 j k) := by
  refine Eq.trans ?_ (arr_w3_at m c (ix2 j k))
  unfold iblk
  rw [View.read_apply]
  show V m c main_v9 _ = V m c main_v9 _
  refine congrArg (V m c main_v9) (funext fun a => Fin.ext ?_)
  obtain ⟨e0, e1⟩ := idx4 t
  match a with
  | ⟨0, _⟩ => show win0_4.index t (0 : Fin 2) * 1024 + 1 * j.val = j.val; rw [e0]; omega
  | ⟨1, _⟩ => show win0_4.index t (1 : Fin 2) * 1024 + 1 * k.val = k.val; rw [e1]; omega

theorem idx5 : ∀ t : Fin cfg0.N, win0_5.index t (0 : Fin 2) = 0 ∧ win0_5.index t (1 : Fin 2) = 0 :=
  (by decide +kernel : ∀ t : Fin grid0.N, _)

theorem blk_b0 (c : Dev nD) (t : Fin cfg0.N) (j : Fin 1024) :
    (iblk m c 5 t : S1x1024.Idx → EReal) (ix2 (0 : Fin 1) j) = ab4 m c (ix1 j) + ab5 m c (ix1 j) := by
  refine Eq.trans ?_ (arr_b0_at m c j)
  unfold iblk
  rw [View.read_apply]
  show V m c main_v13 _ = V m c main_v13 _
  refine congrArg (V m c main_v13) (funext fun a => Fin.ext ?_)
  obtain ⟨e0, e1⟩ := idx5 t
  match a with
  | ⟨0, _⟩ => show win0_5.index t (0 : Fin 2) * 1 + 1 * (0 : Fin 1).val = (0 : Fin 1).val; rw [e0]; omega
  | ⟨1, _⟩ => show win0_5.index t (1 : Fin 2) * 1024 + 1 * j.val = j.val; rw [e1]; omega

theorem idx6 : ∀ t : Fin cfg0.N, win0_6.index t (0 : Fin 2) = 0 ∧ win0_6.index t (1 : Fin 2) = 0 :=
  (by decide +kernel : ∀ t : Fin grid0.N, _)

theorem blk_w6 (c : Dev nD) (t : Fin cfg0.N) (j k : Fin 1024) :
    (iblk m c 6 t : S1024x1024.Idx → EReal) (ix2 j k) = aW6 m c (ix2 j k) := by
  refine Eq.trans ?_ (arr_w6_at m c (ix2 j k))
  unfold iblk
  rw [View.read_apply]
  show V m c main_v10 _ = V m c main_v10 _
  refine congrArg (V m c main_v10) (funext fun a => Fin.ext ?_)
  obtain ⟨e0, e1⟩ := idx6 t
  match a with
  | ⟨0, _⟩ => show win0_6.index t (0 : Fin 2) * 1024 + 1 * j.val = j.val; rw [e0]; omega
  | ⟨1, _⟩ => show win0_6.index t (1 : Fin 2) * 1024 + 1 * k.val = k.val; rw [e1]; omega

theorem idx7 : ∀ t : Fin cfg0.N, win0_7.index t (0 : Fin 2) = 0 ∧ win0_7.index t (1 : Fin 2) = 0 :=
  (by decide +kernel : ∀ t : Fin grid0.N, _)

theorem blk_w7 (c : Dev nD) (t : Fin cfg0.N) (j k : Fin 1024) :
    (iblk m c 7 t : S1024x1024.Idx → EReal) (ix2 j k) = aW7 m c (ix2 j k) := by
  refine Eq.trans ?_ (arr_w7_at m c (ix2 j k))
  unfold iblk
  rw [View.read_apply]
  show V m c main_v11 _ = V m c main_v11 _
  refine congrArg (V m c main_v11) (funext fun a => Fin.ext ?_)
  obtain ⟨e0, e1⟩ := idx7 t
  match a with
  | ⟨0, _⟩ => show win0_7.index t (0 : Fin 2) * 1024 + 1 * j.val = j.val; rw [e0]; omega
  | ⟨1, _⟩ => show win0_7.index t (1 : Fin 2) * 1024 + 1 * k.val = k.val; rw [e1]; omega

theorem idx8 : ∀ t : Fin cfg0.N, win0_8.index t (0 : Fin 2) = 0 ∧ win0_8.index t (1 : Fin 2) = 0 :=
  (by decide +kernel : ∀ t : Fin grid0.N, _)

theorem blk_b1 (c : Dev nD) (t : Fin cfg0.N) (j : Fin 1024) :
    (iblk m c 8 t : S1x1024.Idx → EReal) (ix2 (0 : Fin 1) j) = ab8 m c (ix1 j) + ab9 m c (ix1 j) := by
  refine Eq.trans ?_ (arr_b1_at m c j)
  unfold iblk
  rw [View.read_apply]
  show V m c main_v15 _ = V m c main_v15 _
  refine congrArg (V m c main_v15) (funext fun a => Fin.ext ?_)
  obtain ⟨e0, e1⟩ := idx8 t
  match a with
  | ⟨0, _⟩ => show win0_8.index t (0 : Fin 2) * 1 + 1 * (0 : Fin 1).val = (0 : Fin 1).val; rw [e0]; omega
  | ⟨1, _⟩ => show win0_8.index t (1 : Fin 2) * 1024 + 1 * j.val = j.val; rw [e1]; omega

theorem idx9 : ∀ t : Fin cfg0.N, win0_9.index t (0 : Fin 2) = 0 ∧ win0_9.index t (1 : Fin 2) = 0 :=
  (by decide +kernel : ∀ t : Fin grid0.N, _)

theorem blk_wx (c : Dev nD) (t : Fin cfg0.N) (j : Fin 4096) (k : Fin 1024) :
    (iblk m c 9 t : S4096x1024.Idx → EReal) (ix2 j k) = aW10 m c (ix2 j (lo k)) := by
  refine Eq.trans ?_ (arr_wx_at m c j k)
  unfold iblk
  rw [View.read_apply]
  show V m c main_v17 _ = V m c main_v17 _
  refine congrArg (V m c main_v17) (funext fun a => Fin.ext ?_)
  obtain ⟨e0, e1⟩ := idx9 t
  match a with
  | ⟨0, _⟩ => show win0_9.index t (0 : Fin 2) * 4096 + 1 * j.val = j.val; rw [e0]; omega
  | ⟨1, _⟩ => show win0_9.index t (1 : Fin 2) * 1024 + 1 * k.val = k.val; rw [e1]; omega

theorem idx10 : ∀ t : Fin cfg0.N, win0_10.index t (0 : Fin 2) = 0 ∧ win0_10.index t (1 : Fin 2) = 0 :=
  (by decide +kernel : ∀ t : Fin grid0.N, _)

theorem blk_wh (c : Dev nD) (t : Fin cfg0.N) (j : Fin 4096) (k : Fin 1024) :
    (iblk m c 10 t : S4096x1024.Idx → EReal) (ix2 j k) = aW10 m c (ix2 j (hi k)) := by
  refine Eq.trans ?_ (arr_wh_at m c j k)
  unfold iblk
  rw [View.read_apply]
  show V m c main_v19 _ = V m c main_v19 _
  refine congrArg (V m c main_v19) (funext fun a => Fin.ext ?_)
  obtain ⟨e0, e1⟩ := idx10 t
  match a with
  | ⟨0, _⟩ => show win0_10.index t (0 : Fin 2) * 4096 + 1 * j.val = j.val; rw [e0]; omega
  | ⟨1, _⟩ => show win0_10.index t (1 : Fin 2) * 1024 + 1 * k.val = k.val; rw [e1]; omega

theorem idx11 : ∀ t : Fin cfg0.N, win0_11.index t (0 : Fin 2) = 0 ∧ win0_11.index t (1 : Fin 2) = 0 :=
  (by decide +kernel : ∀ t : Fin grid0.N, _)

theorem blk_bo (c : Dev nD) (t : Fin cfg0.N) (j : Fin 4096) :
    (iblk m c 11 t : S1x4096.Idx → EReal) (ix2 (0 : Fin 1) j) = ab11 m c (ix1 j) := by
  refine Eq.trans ?_ (arr_bo_at m c j)
  unfold iblk
  rw [View.read_apply]
  show V m c main_v20 _ = V m c main_v20 _
  refine congrArg (V m c main_v20) (funext fun a => Fin.ext ?_)
  obtain ⟨e0, e1⟩ := idx11 t
  match a with
  | ⟨0, _⟩ => show win0_11.index t (0 : Fin 2) * 1 + 1 * (0 : Fin 1).val = (0 : Fin 1).val; rw [e0]; omega
  | ⟨1, _⟩ => show win0_11.index t (1 : Fin 2) * 4096 + 1 * j.val = j.val; rw [e1]; omega

end Cert.RnnKer

end
-- ==== Proof.KerOut.lean ====
/-
  The three result arrays after the launch, and the program's two results.

  Point `t` of the grid writes back rows `128 t … 128 t + 127` of each result array; the thirty-two blocks tile the 4096
  rows, so each array ends holding, at `(r, j)`, the model's row `r` at column `j`: the first hidden state, the second
  hidden state, and the log-probabilities. After the launch the host code stacks the two hidden states along a new leading
  axis.
-/
import proofs.«100841_j6451040879094_2_alg».proof.Proof.KerRows
import proofs.«100841_j6451040879094_2_alg».proof.Proof.KerBlocks

noncomputable section

namespace Cert.RnnKer

open Cert.KernelIdeal Cert.KernelIdeal.Gen Cert.RnnSpec Idealize.ShloMosaic Idealize.ShloMosaic.TcCoe Idealize.ShloMosaic.ValueIdx
  Idealize.SL.Sem Idealize.ShloMosaic.StableHlo
open Idealize.ShloMosaic.Pipeline (Dat)

/-! ## One entry of each stored block, over any loaded blocks that hold the arguments' rows -/

section Entries

variable (x0 x1 x2 : FVec Ideal S128x1024 .bf16) (x3 x4 : FVec Ideal S1024x1024 .bf16) (x5 : FVec Ideal S1x1024 .f32)
  (x6 x7 : FVec Ideal S1024x1024 .bf16) (x8 : FVec Ideal S1x1024 .f32) (x9 x10 : FVec Ideal S4096x1024 .bf16) (x11 : FVec Ideal S1x4096 .f32)
  (X : SX.Idx → EReal) (H : SH.Idx → EReal) (W2 W3 : SW.Idx → EReal) (b4 b5 : SB.Idx → EReal)
  (W6 W7 : SW.Idx → EReal) (b8 b9 : SB.Idx → EReal) (W10 : SWo.Idx → EReal) (b11 : SBo.Idx → EReal)
  (p : Fin 128) (r : Fin 4096)

theorem h0_entry (h0 : ∀ k, x0 (ix2 p k) = X (ix3 0 r k)) (h1 : ∀ k, x1 (ix2 p k) = H (ix3 0 r k))
    (h3 : ∀ j k, x3 (ix2 j k) = W2 (ix2 j k)) (h4 : ∀ j k, x4 (ix2 j k) = W3 (ix2 j k))
    (h5 : ∀ j, x5 (ix2 (0 : Fin 1) j) = b4 (ix1 j) + b5 (ix1 j)) (q : Fin 1024) :
    k0_pay3 (F := Ideal) x0 x1 x3 x4 x5 (ix2 p q) = H0 X H W2 W3 b4 b5 r q := by
  rw [pay3_at]
  simp only [h0, h1, h3, h4, h5]
  exact cell_fused (fun k => X (ix3 0 r k)) (fun k => H (ix3 0 r k)) (fun j k => W2 (ix2 j k)) (fun j k => W3 (ix2 j k))
    (fun j => b4 (ix1 j)) (fun j => b5 (ix1 j)) q

theorem h1_entry (h0 : ∀ k, x0 (ix2 p k) = X (ix3 0 r k)) (h1 : ∀ k, x1 (ix2 p k) = H (ix3 0 r k))
    (h2 : ∀ k, x2 (ix2 p k) = H (ix3 1 r k))
    (h3 : ∀ j k, x3 (ix2 j k) = W2 (ix2 j k)) (h4 : ∀ j k, x4 (ix2 j k) = W3 (ix2 j k))
    (h5 : ∀ j, x5 (ix2 (0 : Fin 1) j) = b4 (ix1 j) + b5 (ix1 j))
    (h6 : ∀ j k, x6 (ix2 j k) = W6 (ix2 j k)) (h7 : ∀ j k, x7 (ix2 j k) = W7 (ix2 j k))
    (h8 : ∀ j, x8 (ix2 (0 : Fin 1) j) = b8 (ix1 j) + b9 (ix1 j)) (q : Fin 1024) :
    k0_pay5 (F := Ideal) x0 x1 x2 x3 x4 x5 x6 x7 x8 (ix2 p q) = H1 X H W2 W3 b4 b5 W6 W7 b8 b9 r q := by
  rw [pay5_at]
  have e : (fun k => k0_pay3 (F := Ideal) x0 x1 x3 x4 x5 (ix2 p k)) = H0 X H W2 W3 b4 b5 r :=
    funext fun k => h0_entry x0 x1 x3 x4 x5 X H W2 W3 b4 b5 p r h0 h1 h3 h4 h5 k
  rw [e]
  simp only [h2, h6, h7, h8]
  exact cell_fused (H0 X H W2 W3 b4 b5 r) (fun k => H (ix3 1 r k)) (fun j k => W6 (ix2 j k)) (fun j k => W7 (ix2 j k))
    (fun j => b8 (ix1 j)) (fun j => b9 (ix1 j)) q

theorem out_entry (h0 : ∀ k, x0 (ix2 p k) = X (ix3 0 r k)) (h1 : ∀ k, x1 (ix2 p k) = H (ix3 0 r k))
    (h3 : ∀ j k, x3 (ix2 j k) = W2 (ix2 j k)) (h4 : ∀ j k, x4 (ix2 j k) = W3 (ix2 j k))
    (h5 : ∀ j, x5 (ix2 (0 : Fin 1) j) = b4 (ix1 j) + b5 (ix1 j))
    (h9 : ∀ j k, x9 (ix2 j k) = W10 (ix2 j (lo k))) (h10 : ∀ j k, x10 (ix2 j k) = W10 (ix2 j (hi k)))
    (h11 : ∀ j, x11 (ix2 (0 : Fin 1) j) = b11 (ix1 j)) (q : Fin 4096) :
    k0_pay1 (F := Ideal) (k0_pay2 x0) (k0_pay4 x0 x1 x3 x4 x5) x9 x10 x11 (ix2 p q)
      = logSoftmax (L X H W2 W3 b4 b5 W10 b11 r) q := by
  rw [pay1_at]
  have e1 : (fun k => k0_pay2 (F := Ideal) x0 (ix2 p k)) = fun k => X (ix3 0 r k) := funext fun k => by
    unfold k0_pay2
    rw [shapeCast_self]
    exact h0 k
  have e2 : (fun k => k0_pay4 (F := Ideal) x0 x1 x3 x4 x5 (ix2 p k)) = H0 X H W2 W3 b4 b5 r :=
    funext fun k => (pay4_at x0 x1 x3 x4 x5 (ix2 p k)).trans (h0_entry x0 x1 x3 x4 x5 X H W2 W3 b4 b5 p r h0 h1 h3 h4 h5 k)
  rw [e1, e2]
  simp only [h9, h10, h11]
  rfl

end Entries

variable (m : (ℓ : Loc nD τ sig) → Buf (Elt Ideal) ℓ) (ρ : Dev nD → PrngReg)

theorem hz : (![0, 0] : Fin 2 → Nat) = fun _ => 0 := funext fun a => by fin_cases a <;> rfl

/-! ## What each result array ends holding -/

/-- The new first hidden state. -/
def G12 (c : Dev nD) : S4096x1024.Idx → EReal := fun i => H0 (aX m c) (aH m c) (aW2 m c) (aW3 m c) (ab4 m c) (ab5 m c) (i 0) (i 1)
/-- The new second hidden state. -/
def G13 (c : Dev nD) : S4096x1024.Idx → EReal := fun i => H1 (aX m c) (aH m c) (aW2 m c) (aW3 m c) (ab4 m c) (ab5 m c) (aW6 m c) (aW7 m c) (ab8 m c) (ab9 m c) (i 0) (i 1)
/-- The log-probabilities. -/
def G14 (c : Dev nD) : S4096x4096.Idx → EReal := Out (aX m c) (aH m c) (aW2 m c) (aW3 m c) (ab4 m c) (ab5 m c) (aW10 m c) (ab11 m c)

theorem idx12 : ∀ t : Fin cfg0.N, win0_12.index t (0 : Fin 2) = t.val ∧ win0_12.index t (1 : Fin 2) = 0 :=
  (by decide +kernel : ∀ t : Fin grid0.N, _)

/-- Entry `(p, q)` of the block point `t` writes back sits at row `128 t + p`, column `q` of the array. -/
theorem emb12 (t : Fin cfg0.N) (p : Fin 128) (q : Fin 1024) (r : Fin 4096) (hr : r.val = 128 * t.val + p.val) :
    ((cfg0.win 12).blk t).view.emb (ix2 p q) = (ix2 r q : S4096x1024.Idx) := by
  refine funext fun a => Fin.ext ?_
  obtain ⟨e0, e1⟩ := idx12 t
  match a with
  | ⟨0, _⟩ => show win0_12.index t (0 : Fin 2) * 128 + 1 * p.val = r.val; rw [e0, hr]; omega
  | ⟨1, _⟩ => show win0_12.index t (1 : Fin 2) * 1024 + 1 * q.val = q.val; rw [e1]; omega

theorem flushed12 (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after0_12]
  unfold out0_12
  rw [View.canon_unit_zero hz]
  simp only [View.ld_unit_zero (S := S128x1024) hz, View.ld_unit_zero (S := S1024x1024) hz, View.ld_unit_zero (S := S1x1024) hz,
    View.ld_unit_zero (S := S4096x1024) hz, View.ld_unit_zero (S := S1x4096) hz]
  funext y
  obtain ⟨p, q, rfl⟩ : ∃ (p : Fin 128) (q : Fin 1024), y = ix2 p q := ⟨y 0, y 1, eq_ix2 y⟩
  have ht : t.val < 32 := lt_of_lt_of_eq t.isLt (show cfg0.N = 32 from N_0)
  have hp : p.val < 128 := p.isLt
  obtain ⟨r, hr⟩ : ∃ r : Fin 4096, r.val = 128 * t.val + p.val := ⟨⟨128 * t.val + p.val, by omega⟩, rfl⟩
  refine (h0_entry (iblk m c 0 t) (iblk m c 1 t) (iblk m c 3 t) (iblk m c 4 t) (iblk m c 5 t) (aX m c) (aH m c) (aW2 m c) (aW3 m c) (ab4 m c) (ab5 m c) p r (fun k => blk_x m c t p k r hr) (fun k => blk_h0 m c t p k r hr) (fun j k => blk_w2 m c t j k) (fun j k => blk_w3 m c t j k) (fun j => blk_b0 m c t j) q).trans ?_
  rw [View.read_apply, emb12 t p q r hr]
  rfl

theorem mem_blk12 (t : Fin cfg0.N) (i : S4096x1024.Idx) :
    i ∈ ((cfg0.win 12).blk t).view.set ↔ ∀ a : Fin 2, win0_12.index t a * S128x1024.size a ≤ (i a).val ∧ (i a).val < win0_12.index t a * S128x1024.size a + S128x1024.size a := by
  show i ∈ ((View.whole main_v21_0).slice (win0_12.rect t)).set ↔ _
  rw [View.set_slice_whole, Rect.mem_set_unit]
  exact Iff.rfl

/-- Row `r` of the array lies in the block of point `r / 128`. -/
theorem cover12 (i : S4096x1024.Idx) : ∃ t : Fin cfg0.N, (cfg0.win 12).flush t = true ∧ i ∈ ((cfg0.win 12).blk t).view.set := by
  have hi0 : (i 0).val < 4096 := (i 0).isLt
  have hi1 : (i 1).val < 1024 := (i 1).isLt
  obtain ⟨t, htv⟩ : ∃ t : Fin cfg0.N, t.val = (i 0).val / 128 := ⟨⟨(i 0).val / 128, by rw [show cfg0.N = 32 from N_0]; omega⟩, rfl⟩
  refine ⟨t, flush0_12 t, ?_⟩
  rw [mem_blk12]
  obtain ⟨e0, e1⟩ := idx12 t
  intro a
  match a with
  | ⟨0, _⟩ => show win0_12.index t (0 : Fin 2) * 128 ≤ (i 0).val ∧ (i 0).val < win0_12.index t (0 : Fin 2) * 128 + 128; rw [e0, htv]; omega
  | ⟨1, _⟩ => show win0_12.index t (1 : Fin 2) * 1024 ≤ (i 1).val ∧ (i 1).val < win0_12.index t (1 : Fin 2) * 1024 + 1024; rw [e1]; omega

theorem final12 (c : Dev nD) : (dats m 0 c).arrAt 12 cfg0.N = G12 m c :=
  (dats m 0 c).arrAt_eq_of_cover 12 (G12 m c) (fun t _ => flushed12 m c t) cover12

theorem idx13 : ∀ t : Fin cfg0.N, win0_13.index t (0 : Fin 2) = t.val ∧ win0_13.index t (1 : Fin 2) = 0 :=
  (by decide +kernel : ∀ t : Fin grid0.N, _)

/-- Entry `(p, q)` of the block point `t` writes back sits at row `128 t + p`, column `q` of the array. -/
theorem emb13 (t : Fin cfg0.N) (p : Fin 128) (q : Fin 1024) (r : Fin 4096) (hr : r.val = 128 * t.val + p.val) :
    ((cfg0.win 13).blk t).view.emb (ix2 p q) = (ix2 r q : S4096x1024.Idx) := by
  refine funext fun a => Fin.ext ?_
  obtain ⟨e0, e1⟩ := idx13 t
  match a with
  | ⟨0, _⟩ => show win0_13.index t (0 : Fin 2) * 128 + 1 * p.val = r.val; rw [e0, hr]; omega
  | ⟨1, _⟩ => show win0_13.index t (1 : Fin 2) * 1024 + 1 * q.val = q.val; rw [e1]; omega

theorem flushed13 (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after0_13]
  unfold out0_13
  rw [View.canon_unit_zero hz]
  simp only [View.ld_unit_zero (S := S128x1024) hz, View.ld_unit_zero (S := S1024x1024) hz, View.ld_unit_zero (S := S1x1024) hz,
    View.ld_unit_zero (S := S4096x1024) hz, View.ld_unit_zero (S := S1x4096) hz]
  funext y
  obtain ⟨p, q, rfl⟩ : ∃ (p : Fin 128) (q : Fin 1024), y = ix2 p q := ⟨y 0, y 1, eq_ix2 y⟩
  have ht : t.val < 32 := lt_of_lt_of_eq t.isLt (show cfg0.N = 32 from N_0)
  have hp : p.val < 128 := p.isLt
  obtain ⟨r, hr⟩ : ∃ r : Fin 4096, r.val = 128 * t.val + p.val := ⟨⟨128 * t.val + p.val, by omega⟩, rfl⟩
  refine (h1_entry (iblk m c 0 t) (iblk m c 1 t) (iblk m c 2 t) (iblk m c 3 t) (iblk m c 4 t) (iblk m c 5 t) (iblk m c 6 t) (iblk m c 7 t) (iblk m c 8 t) (aX m c) (aH m c) (aW2 m c) (aW3 m c) (ab4 m c) (ab5 m c) (aW6 m c) (aW7 m c) (ab8 m c) (ab9 m c) p r (fun k => blk_x m c t p k r hr) (fun k => blk_h0 m c t p k r hr) (fun k => blk_h1 m c t p k r hr) (fun j k => blk_w2 m c t j k) (fun j k => blk_w3 m c t j k) (fun j => blk_b0 m c t j) (fun j k => blk_w6 m c t j k) (fun j k => blk_w7 m c t j k) (fun j => blk_b1 m c t j) q).trans ?_
  rw [View.read_apply, emb13 t p q r hr]
  rfl

theorem mem_blk13 (t : Fin cfg0.N) (i : S4096x1024.Idx) :
    i ∈ ((cfg0.win 13).blk t).view.set ↔ ∀ a : Fin 2, win0_13.index t a * S128x1024.size a ≤ (i a).val ∧ (i a).val < win0_13.index t a * S128x1024.size a + S128x1024.size a := by
  show i ∈ ((View.whole main_v21_1).slice (win0_13.rect t)).set ↔ _
  rw [View.set_slice_whole, Rect.mem_set_unit]
  exact Iff.rfl

/-- Row `r` of the array lies in the block of point `r / 128`. -/
theorem cover13 (i : S4096x1024.Idx) : ∃ t : Fin cfg0.N, (cfg0.win 13).flush t = true ∧ i ∈ ((cfg0.win 13).blk t).view.set := by
  have hi0 : (i 0).val < 4096 := (i 0).isLt
  have hi1 : (i 1).val < 1024 := (i 1).isLt
  obtain ⟨t, htv⟩ : ∃ t : Fin cfg0.N, t.val = (i 0).val / 128 := ⟨⟨(i 0).val / 128, by rw [show cfg0.N = 32 from N_0]; omega⟩, rfl⟩
  refine ⟨t, flush0_13 t, ?_⟩
  rw [mem_blk13]
  obtain ⟨e0, e1⟩ := idx13 t
  intro a
  match a with
  | ⟨0, _⟩ => show win0_13.index t (0 : Fin 2) * 128 ≤ (i 0).val ∧ (i 0).val < win0_13.index t (0 : Fin 2) * 128 + 128; rw [e0, htv]; omega
  | ⟨1, _⟩ => show win0_13.index t (1 : Fin 2) * 1024 ≤ (i 1).val ∧ (i 1).val < win0_13.index t (1 : Fin 2) * 1024 + 1024; rw [e1]; omega

theorem final13 (c : Dev nD) : (dats m 0 c).arrAt 13 cfg0.N = G13 m c :=
  (dats m 0 c).arrAt_eq_of_cover 13 (G13 m c) (fun t _ => flushed13 m c t) cover13

theorem idx14 : ∀ t : Fin cfg0.N, win0_14.index t (0 : Fin 2) = t.val ∧ win0_14.index t (1 : Fin 2) = 0 :=
  (by decide +kernel : ∀ t : Fin grid0.N, _)

/-- Entry `(p, q)` of the block point `t` writes back sits at row `128 t + p`, column `q` of the array. -/
theorem emb14 (t : Fin cfg0.N) (p : Fin 128) (q : Fin 4096) (r : Fin 4096) (hr : r.val = 128 * t.val + p.val) :
    ((cfg0.win 14).blk t).view.emb (ix2 p q) = (ix2 r q : S4096x4096.Idx) := by
  refine funext fun a => Fin.ext ?_
  obtain ⟨e0, e1⟩ := idx14 t
  match a with
  | ⟨0, _⟩ => show win0_14.index t (0 : Fin 2) * 128 + 1 * p.val = r.val; rw [e0, hr]; omega
  | ⟨1, _⟩ => show win0_14.index t (1 : Fin 2) * 4096 + 1 * q.val = q.val; rw [e1]; omega

theorem flushed14 (c : Dev nD) (t : Fin cfg0.N) :
    (dats m 0 c).flushed 14 t = ((cfg0.win 14).blk t).view.read (Elt Ideal) (G14 m c) := by
  show (cfg0.win 14).cut (grid0.coords t) ((dats m 0 c).after 14 t) = _
  rw [after0_14]
  unfold out0_14
  rw [View.canon_unit_zero hz]
  simp only [View.ld_unit_zero (S := S128x1024) hz, View.ld_unit_zero (S := S1024x1024) hz, View.ld_unit_zero (S := S1x1024) hz,
    View.ld_unit_zero (S := S4096x1024) hz, View.ld_unit_zero (S := S1x4096) hz]
  funext y
  obtain ⟨p, q, rfl⟩ : ∃ (p : Fin 128) (q : Fin 4096), y = ix2 p q := ⟨y 0, y 1, eq_ix2 y⟩
  have ht : t.val < 32 := lt_of_lt_of_eq t.isLt (show cfg0.N = 32 from N_0)
  have hp : p.val < 128 := p.isLt
  obtain ⟨r, hr⟩ : ∃ r : Fin 4096, r.val = 128 * t.val + p.val := ⟨⟨128 * t.val + p.val, by omega⟩, rfl⟩
  refine (out_entry (iblk m c 0 t) (iblk m c 1 t) (iblk m c 3 t) (iblk m c 4 t) (iblk m c 5 t) (iblk m c 9 t) (iblk m c 10 t) (iblk m c 11 t) (aX m c) (aH m c) (aW2 m c) (aW3 m c) (ab4 m c) (ab5 m c) (aW10 m c) (ab11 m c) p r (fun k => blk_x m c t p k r hr) (fun k => blk_h0 m c t p k r hr) (fun j k => blk_w2 m c t j k) (fun j k => blk_w3 m c t j k) (fun j => blk_b0 m c t j) (fun j k => blk_wx m c t j k) (fun j k => blk_wh m c t j k) (fun j => blk_bo m c t j) q).trans ?_
  rw [View.read_apply, emb14 t p q r hr]
  rfl

theorem mem_blk14 (t : Fin cfg0.N) (i : S4096x4096.Idx) :
    i ∈ ((cfg0.win 14).blk t).view.set ↔ ∀ a : Fin 2, win0_14.index t a * S128x4096.size a ≤ (i a).val ∧ (i a).val < win0_14.index t a * S128x4096.size a + S128x4096.size a := by
  show i ∈ ((View.whole main_v21_2).slice (win0_14.rect t)).set ↔ _
  rw [View.set_slice_whole, Rect.mem_set_unit]
  exact Iff.rfl

/-- Row `r` of the array lies in the block of point `r / 128`. -/
theorem cover14 (i : S4096x4096.Idx) : ∃ t : Fin cfg0.N, (cfg0.win 14).flush t = true ∧ i ∈ ((cfg0.win 14).blk t).view.set := by
  have hi0 : (i 0).val < 4096 := (i 0).isLt
  have hi1 : (i 1).val < 4096 := (i 1).isLt
  obtain ⟨t, htv⟩ : ∃ t : Fin cfg0.N, t.val = (i 0).val / 128 := ⟨⟨(i 0).val / 128, by rw [show cfg0.N = 32 from N_0]; omega⟩, rfl⟩
  refine ⟨t, flush0_14 t, ?_⟩
  rw [mem_blk14]
  obtain ⟨e0, e1⟩ := idx14 t
  intro a
  match a with
  | ⟨0, _⟩ => show win0_14.index t (0 : Fin 2) * 128 ≤ (i 0).val ∧ (i 0).val < win0_14.index t (0 : Fin 2) * 128 + 128; rw [e0, htv]; omega
  | ⟨1, _⟩ => show win0_14.index t (1 : Fin 2) * 4096 ≤ (i 1).val ∧ (i 1).val < win0_14.index t (1 : Fin 2) * 4096 + 4096; rw [e1]; omega

theorem final14 (c : Dev nD) : (dats m 0 c).arrAt 14 cfg0.N = G14 m c :=
  (dats m 0 c).arrAt_eq_of_cover 14 (G14 m c) (fun t _ => flushed14 m c t) cover14

end Cert.RnnKer

end
-- ==== Proof.KerRun.lean ====
/-
  The kernel program's run, read: its two results as the model of the arguments.

  The first result is the third result array of the launch. The second is the two hidden-state arrays, each given a leading
  unit axis and joined along it: index `(0, r, j)` reads the first hidden state at `(r, j)` and index `(1, r, j)` the second.
-/
import proofs.«100841_j6451040879094_2_alg».proof.Proof.KerOut

noncomputable section

namespace Cert.RnnKer

open Cert.KernelIdeal Cert.KernelIdeal.Gen Cert.RnnSpec Idealize.ShloMosaic Idealize.ShloMosaic.TcCoe Idealize.ShloMosaic.ValueIdx
  Idealize.SL.Sem Idealize.ShloMosaic.StableHlo
open Idealize.ShloMosaic.Pipeline (Dat)

variable (m : (ℓ : Loc nD τ sig) → Buf (Elt Ideal) ℓ) (ρ : Dev nD → PrngReg)

/-- The stacked hidden states. -/
def GHid (c : Dev nD) : S2x4096x1024.Idx → EReal := Hid (aX m c) (aH m c) (aW2 m c) (aW3 m c) (ab4 m c) (ab5 m c) (aW6 m c) (aW7 m c) (ab8 m c) (ab9 m c)

theorem arr12 (c : Dev nD) :
    @Eq (S4096x1024.Idx → EReal)
      (Pipeline.withArrays (cfgs 0).spec c (V0 m c) (fun w => (dats m 0 c).arrAt w (cfgs 0).N) (Proc.devRef .tc main_v21_0)) (G12 m c) :=
  (Pipeline.withArrays_arr spec0 launch0.win.arr_inj c _ _ 12).trans (final12 m c)

theorem arr13 (c : Dev nD) :
    @Eq (S4096x1024.Idx → EReal)
      (Pipeline.withArrays (cfgs 0).spec c (V0 m c) (fun w => (dats m 0 c).arrAt w (cfgs 0).N) (Proc.devRef .tc main_v21_1)) (G13 m c) :=
  (Pipeline.withArrays_arr spec0 launch0.win.arr_inj c _ _ 13).trans (final13 m c)

/-- Two [4096, 1024] arrays, each given a leading unit axis, joined along it: layer `0` reads the first. -/
theorem stack_at0 (A B : S4096x1024.Idx → EReal) (r : Fin 4096) (j : Fin 1024) :
    concatenate S2x4096x1024 0 [⟨S1x4096x1024, broadcastInDim S1x4096x1024 ![1, 2] bcast_S4096x1024_S1x4096x1024_1_2 A⟩, ⟨S1x4096x1024, broadcastInDim S1x4096x1024 ![1, 2] bcast_S4096x1024_S1x4096x1024_1_2 B⟩] concatenates_S1x4096x1024_S1x4096x1024_S2x4096x1024_d0 (ix3 (0 : Fin 2) r j) = A (ix2 r j) := by
  refine (concatenate_pair_apply_left (t := S2x4096x1024) (s₁ := S1x4096x1024) (s₂ := S1x4096x1024) (0 : Fin 3) (broadcastInDim S1x4096x1024 ![1, 2] bcast_S4096x1024_S1x4096x1024_1_2 A) (broadcastInDim S1x4096x1024 ![1, 2] bcast_S4096x1024_S1x4096x1024_1_2 B) concatenates_S1x4096x1024_S1x4096x1024_S2x4096x1024_d0 (ix3 (0 : Fin 2) r j) rfl (ix3 (0 : Fin 1) r j) (fun b => by
    match b with
    | ⟨0, _⟩ => rfl
    | ⟨1, _⟩ => rfl
    | ⟨2, _⟩ => rfl)).trans ?_
  exact (broadcastInDim_apply _ bcast_S4096x1024_S1x4096x1024_1_2 A (ix3 (0 : Fin 1) r j) (ix2 r j) (fun a => by
      match a with
      | ⟨0, _⟩ => show r.val = if (4096 : Nat) = 1 then 0 else r.val; rw [if_neg (by decide)]
      | ⟨1, _⟩ => show j.val = if (1024 : Nat) = 1 then 0 else j.val; rw [if_neg (by decide)]))

/-- … and layer `1` reads the second. -/
theorem stack_at1 (A B : S4096x1024.Idx → EReal) (r : Fin 4096) (j : Fin 1024) :
    concatenate S2x4096x1024 0 [⟨S1x4096x1024, broadcastInDim S1x4096x1024 ![1, 2] bcast_S4096x1024_S1x4096x1024_1_2 A⟩, ⟨S1x4096x1024, broadcastInDim S1x4096x1024 ![1, 2] bcast_S4096x1024_S1x4096x1024_1_2 B⟩] concatenates_S1x4096x1024_S1x4096x1024_S2x4096x1024_d0 (ix3 (1 : Fin 2) r j) = B (ix2 r j) := by
  refine (concatenate_pair_apply_right (t := S2x4096x1024) (s₁ := S1x4096x1024) (s₂ := S1x4096x1024) (0 : Fin 3) (broadcastInDim S1x4096x1024 ![1, 2] bcast_S4096x1024_S1x4096x1024_1_2 A) (broadcastInDim S1x4096x1024 ![1, 2] bcast_S4096x1024_S1x4096x1024_1_2 B) concatenates_S1x4096x1024_S1x4096x1024_S2x4096x1024_d0 (ix3 (1 : Fin 2) r j) rfl rfl (ix3 (0 : Fin 1) r j) (fun b hb => by
    match b with
    | ⟨0, _⟩ => exact absurd rfl hb
    | ⟨1, _⟩ => rfl
    | ⟨2, _⟩ => rfl) rfl).trans ?_
  exact (broadcastInDim_apply _ bcast_S4096x1024_S1x4096x1024_1_2 B (ix3 (0 : Fin 1) r j) (ix2 r j) (fun a => by
      match a with
      | ⟨0, _⟩ => show r.val = if (4096 : Nat) = 1 then 0 else r.val; rw [if_neg (by decide)]
      | ⟨1, _⟩ => show j.val = if (1024 : Nat) = 1 then 0 else j.val; rw [if_neg (by decide)]))

theorem tail24 (c : Dev nD) :
    @Eq (S2x4096x1024.Idx → EReal) (Pipeline.afterTail₀ cfgs (dats m) 0 (V0 m) [hostOps1] c main_v24) (GHid m c) := by
  unfold Pipeline.afterTail₀
  show StableHlo.after hostOps1 _ (Proc.devRef .tc main_v24) = _
  after_results
  rw [arr12, arr13]
  funext i
  obtain ⟨l, r, j, rfl⟩ : ∃ (l : Fin 2) (r : Fin 4096) (j : Fin 1024), i = ix3 l r j := ⟨i 0, i 1, i 2, eq_ix3 i⟩
  match l with
  | ⟨0, _⟩ => exact (stack_at0 (G12 m c) (G13 m c) r j).trans (Hid_ix3_zero (aX m c) (aH m c) (aW2 m c) (aW3 m c) (ab4 m c) (ab5 m c) (aW6 m c) (aW7 m c) (ab8 m c) (ab9 m c) r j).symm
  | ⟨1, _⟩ => exact (stack_at1 (G12 m c) (G13 m c) r j).trans (Hid_ix3_one (aX m c) (aH m c) (aW2 m c) (aW3 m c) (ab4 m c) (ab5 m c) (aW6 m c) (aW7 m c) (ab8 m c) (ab9 m c) r j).symm

/-- Every weakly fair execution of the kernel program terminates with the log-probabilities and the stacked hidden states of the
    model in its two results, its arguments unchanged. -/
theorem run : θ_run defs (onTc (τ := τ) (main (F := Ideal))) ⟨m, fun _ => 0, ρ⟩ (fun r => ∀ c : Dev nD,
      r.2.mem ((c.tc : Thread nD τ).loc main_v21_2) = G14 m c
      ∧ r.2.mem ((c.tc : Thread nD τ).loc main_v24) = GHid m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 14).trans (final14 m c),
      ((h c).2 main_v24 (Pipeline.mem_restRefs_of main_v24 (by decide) (by decide))).trans (tail24 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.RnnKer

end
-- ==== Proof.RefRows.lean ====
/-
  The reference program read row by row.

  Each operation of the reference writes an array that, at an index given by explicit coordinates, is a plain expression in
  the argument arrays at explicit coordinates: a reshape of `[1, 4096, 1024]` to `[4096, 1024]` reads `(0, r, k)` at
  `(r, k)`; a transpose swaps the two coordinates; a broadcast of a bias reads the bias at the column; a product of two
  arrays is the sum over the contracted column. Composing these gives the two tanh cells, the logits (the product over the
  2048 joined columns splits into the first and the last 1024) and the row-wise `log_softmax`.
-/
import proofs.«100841_j6451040879094_2_alg».proof.Proof.RefRead
import proofs.«100841_j6451040879094_2_alg».proof.Proof.Spec
import Idealize.ShloMosaic.Lib.Pipeline.Value
import Idealize.ShloMosaic.Lib.ValueIdx
import Idealize.ShloMosaic.PureOps.Ideal.Laws
noncomputable section
namespace Cert.RnnRef
open Cert.ReferenceIdeal Cert.ReferenceIdeal.ReadP Cert.RnnSpec Idealize.ShloMosaic Idealize.ShloMosaic.ValueIdx
variable (X : (⟨S1x4096x1024, .f32⟩ : BufTy).Contents (Elt Ideal)) (H : (⟨S2x4096x1024, .f32⟩ : BufTy).Contents (Elt Ideal))
  (W2 W3 W6 W7 : (⟨S1024x1024, .f32⟩ : BufTy).Contents (Elt Ideal)) (b4 b5 b8 b9 : (⟨S1024, .f32⟩ : BufTy).Contents (Elt Ideal))
  (W10 : (⟨S4096x2048, .f32⟩ : BufTy).Contents (Elt Ideal)) (b11 : (⟨S4096, .f32⟩ : BufTy).Contents (Elt Ideal))

/-! ## The leaves: reshapes, slices, transposes and broadcasts at explicit coordinates -/

/-- The input with its leading unit axis dropped: `(r, k)` reads `(0, r, k)`. -/
theorem v0_at (r : Fin 4096) (k : Fin 1024) : val_main_v0 (F := Ideal) X (ix2 r k) = X (ix3 0 r k) := by
  have hr := r.isLt
  have hk := k.isLt
  rw [val_main_v0_apply]
  exact congrArg X (funext fun a => Fin.ext (by
    match a with
    | ⟨0, _⟩ => rfl
    | ⟨1, _⟩ => show (r.val * 1024 + k.val) / 1024 % 4096 = r.val; omega
    | ⟨2, _⟩ => show (r.val * 1024 + k.val) % 1024 = k.val; omega))

/-- The first old hidden state as a matrix: `(r, k)` reads `(0, r, k)`. -/
theorem v7_at (r : Fin 4096) (k : Fin 1024) : val_main_v7 (F := Ideal) H (ix2 r k) = H (ix3 0 r k) := by
  have hr := r.isLt
  have hk := k.isLt
  rw [val_main_v7_apply, val_main_v6_apply]
  exact congrArg H (funext fun a => Fin.ext (by
    match a with
    | ⟨0, _⟩ => rfl
    | ⟨1, _⟩ => show (r.val * 1024 + k.val) / 1024 % 4096 = r.val; omega
    | ⟨2, _⟩ => show (r.val * 1024 + k.val) % 1024 = k.val; omega))

/-- The second old hidden state as a matrix: `(r, k)` reads `(1, r, k)`. -/
theorem v21_at (r : Fin 4096) (k : Fin 1024) : val_main_v21 (F := Ideal) H (ix2 r k) = H (ix3 1 r k) := by
  have hr := r.isLt
  have hk := k.isLt
  rw [val_main_v21_apply, val_main_v20_apply]
  exact congrArg H (funext fun a => Fin.ext (by
    match a with
    | ⟨0, _⟩ => rfl
    | ⟨1, _⟩ => show (r.val * 1024 + k.val) / 1024 % 4096 = r.val; omega
    | ⟨2, _⟩ => show (r.val * 1024 + k.val) % 1024 = k.val; omega))

/-- A transposed square weight at `(k, j)` is the weight at `(j, k)`. -/
theorem v1_at (k j : Fin 1024) : val_main_v1 (F := Ideal) W2 (ix2 k j) = W2 (ix2 j k) := by
  rw [val_main_v1_apply]
  exact congrArg W2 (funext fun a => Fin.ext (by match a with | ⟨0, _⟩ => rfl | ⟨1, _⟩ => rfl))
theorem v8_at (k j : Fin 1024) : val_main_v8 (F := Ideal) W3 (ix2 k j) = W3 (ix2 j k) := by
  rw [val_main_v8_apply]
  exact congrArg W3 (funext fun a => Fin.ext (by match a with | ⟨0, _⟩ => rfl | ⟨1, _⟩ => rfl))
theorem v15_at (k j : Fin 1024) : val_main_v15 (F := Ideal) W6 (ix2 k j) = W6 (ix2 j k) := by
  rw [val_main_v15_apply]
  exact congrArg W6 (funext fun a => Fin.ext (by match a with | ⟨0, _⟩ => rfl | ⟨1, _⟩ => rfl))
theorem v22_at (k j : Fin 1024) : val_main_v22 (F := Ideal) W7 (ix2 k j) = W7 (ix2 j k) := by
  rw [val_main_v22_apply]
  exact congrArg W7 (funext fun a => Fin.ext (by match a with | ⟨0, _⟩ => rfl | ⟨1, _⟩ => rfl))
/-- The transposed output weight at `(k, j)` is the weight at `(j, k)`. -/
theorem v33_at (k : Fin 2048) (j : Fin 4096) : val_main_v33 (F := Ideal) W10 (ix2 k j) = W10 (ix2 j k) := by
  rw [val_main_v33_apply]
  exact congrArg W10 (funext fun a => Fin.ext (by match a with | ⟨0, _⟩ => rfl | ⟨1, _⟩ => rfl))

/-- A bias broadcast over the rows reads the bias at the column. -/
theorem v4_at (r : Fin 4096) (j : Fin 1024) : val_main_v4 (F := Ideal) b4 (ix2 r j) = b4 (ix1 j) := by
  rw [val_main_v4_apply, val_main_v3_apply]
  exact congrArg b4 (funext fun a => Fin.ext (by match a with | ⟨0, _⟩ => rfl))
theorem v12_at (r : Fin 4096) (j : Fin 1024) : val_main_v12 (F := Ideal) b5 (ix2 r j) = b5 (ix1 j) := by
  rw [val_main_v12_apply, val_main_v11_apply]
  exact congrArg b5 (funext fun a => Fin.ext (by match a with | ⟨0, _⟩ => rfl))
theorem v18_at (r : Fin 4096) (j : Fin 1024) : val_main_v18 (F := Ideal) b8 (ix2 r j) = b8 (ix1 j) := by
  rw [val_main_v18_apply, val_main_v17_apply]
  exact congrArg b8 (funext fun a => Fin.ext (by match a with | ⟨0, _⟩ => rfl))
theorem v26_at (r : Fin 4096) (j : Fin 1024) : val_main_v26 (F := Ideal) b9 (ix2 r j) = b9 (ix1 j) := by
  rw [val_main_v26_apply, val_main_v25_apply]
  exact congrArg b9 (funext fun a => Fin.ext (by match a with | ⟨0, _⟩ => rfl))
theorem v36_at (r j : Fin 4096) : val_main_v36 (F := Ideal) b11 (ix2 r j) = b11 (ix1 j) := by
  rw [val_main_v36_apply, val_main_v35_apply]
  exact congrArg b11 (funext fun a => Fin.ext (by match a with | ⟨0, _⟩ => rfl))

/-! ## The first cell -/

/-- The input row against row `j` of the first input weight. -/
theorem v2_at (r : Fin 4096) (j : Fin 1024) :
    val_main_v2 (F := Ideal) X W2 (ix2 r j) = dot (fun k => X (ix3 0 r k)) (fun k => W2 (ix2 j k)) := by
  rw [val_main_v2_apply]
  unfold dot
  refine Finset.sum_congr rfl fun k _ => ?_
  have el : lidx_main_v2 (ix2 r j) k = ix2 r k := funext fun a => Fin.ext (by match a with | ⟨0, _⟩ => rfl | ⟨1, _⟩ => rfl)
  have er : ridx_main_v2 (ix2 r j) k = ix2 k j := funext fun a => Fin.ext (by match a with | ⟨0, _⟩ => rfl | ⟨1, _⟩ => rfl)
  rw [el, er, v0_at, v1_at]

/-- The first old hidden row against row `j` of the first hidden weight. -/
theorem v9_at (r : Fin 4096) (j : Fin 1024) :
    val_main_v9 (F := Ideal) H W3 (ix2 r j) = dot (fun k => H (ix3 0 r k)) (fun k => W3 (ix2 j k)) := by
  rw [val_main_v9_apply]
  unfold dot
  refine Finset.sum_congr rfl fun k _ => ?_
  have el : lidx_main_v9 (ix2 r j) k = ix2 r k := funext fun a => Fin.ext (by match a with | ⟨0, _⟩ => rfl | ⟨1, _⟩ => rfl)
  have er : ridx_main_v9 (ix2 r j) k = ix2 k j := funext fun a => Fin.ext (by match a with | ⟨0, _⟩ => rfl | ⟨1, _⟩ => rfl)
  rw [el, er, v7_at, v8_at]

theorem h0_at (r : Fin 4096) (j : Fin 1024) : val_main_v14 (F := Ideal) X H W2 W3 b4 b5 (ix2 r j) = H0 X H W2 W3 b4 b5 r j := by
  rw [val_main_v14_apply, val_main_v13_apply, val_main_v10_apply, val_main_v5_apply, v2_at, v9_at, v4_at, v12_at]
  rfl

/-! ## The second cell -/

/-- The new first hidden row against row `j` of the second input weight. -/
theorem v16_at (r : Fin 4096) (j : Fin 1024) :
    val_main_v16 (F := Ideal) X H W2 W3 b4 b5 W6 (ix2 r j) = dot (H0 X H W2 W3 b4 b5 r) (fun k => W6 (ix2 j k)) := by
  rw [val_main_v16_apply]
  unfold dot
  refine Finset.sum_congr rfl fun k _ => ?_
  have el : lidx_main_v16 (ix2 r j) k = ix2 r k := funext fun a => Fin.ext (by match a with | ⟨0, _⟩ => rfl | ⟨1, _⟩ => rfl)
  have er : ridx_main_v16 (ix2 r j) k = ix2 k j := funext fun a => Fin.ext (by match a with | ⟨0, _⟩ => rfl | ⟨1, _⟩ => rfl)
  rw [el, er, h0_at, v15_at]

/-- The second old hidden row against row `j` of the second hidden weight. -/
theorem v23_at (r : Fin 4096) (j : Fin 1024) :
    val_main_v23 (F := Ideal) H W7 (ix2 r j) = dot (fun k => H (ix3 1 r k)) (fun k => W7 (ix2 j k)) := by
  rw [val_main_v23_apply]
  unfold dot
  refine Finset.sum_congr rfl fun k _ => ?_
  have el : lidx_main_v23 (ix2 r j) k = ix2 r k := funext fun a => Fin.ext (by match a with | ⟨0, _⟩ => rfl | ⟨1, _⟩ => rfl)
  have er : ridx_main_v23 (ix2 r j) k = ix2 k j := funext fun a => Fin.ext (by match a with | ⟨0, _⟩ => rfl | ⟨1, _⟩ => rfl)
  rw [el, er, v21_at, v22_at]

theorem h1_at (r : Fin 4096) (j : Fin 1024) : val_main_v28 (F := Ideal) X H W2 W3 b4 b5 W6 W7 b8 b9 (ix2 r j) = H1 X H W2 W3 b4 b5 W6 W7 b8 b9 r j := by
  rw [val_main_v28_apply, val_main_v27_apply, val_main_v24_apply, val_main_v19_apply, v16_at, v23_at, v18_at, v26_at]
  rfl

/-! ## The logits -/

/-- The joined row at a column of its first half is the input row. -/
theorem v32_lo (r : Fin 4096) (k : Fin 1024) :
    val_main_v32 (F := Ideal) X H W2 W3 b4 b5 (ix2 r (lo k)) = X (ix3 0 r k) := by
  unfold val_main_v32
  refine (concatenate_pair_apply_left (t := S4096x2048) (s₁ := S4096x1024) (s₂ := S4096x1024) _ _ _ _ (ix2 r (lo k)) rfl (ix2 r k) (fun b => ?_)).trans (v0_at X r k)
  match b with
  | ⟨0, _⟩ => rfl
  | ⟨1, _⟩ => rfl

/-- The joined row at a column of its second half is the new first hidden row. -/
theorem v32_hi (r : Fin 4096) (k : Fin 1024) :
    val_main_v32 (F := Ideal) X H W2 W3 b4 b5 (ix2 r (hi k)) = H0 X H W2 W3 b4 b5 r k := by
  unfold val_main_v32
  refine (concatenate_pair_apply_right (t := S4096x2048) (s₁ := S4096x1024) (s₂ := S4096x1024) _ _ _ _ (ix2 r (hi k)) rfl rfl (ix2 r k) (fun b hb => ?_) ?_).trans (h0_at X H W2 W3 b4 b5 r k)
  · match b with
    | ⟨0, _⟩ => rfl
    | ⟨1, _⟩ => exact absurd rfl hb
  · show k.val + 1024 = 1024 + k.val
    omega

/-- The joined row against row `j` of the output weight: the two halves' products added. -/
theorem v34_at (r j : Fin 4096) :
    val_main_v34 (F := Ideal) X H W2 W3 b4 b5 W10 (ix2 r j)
      = dot (fun k => X (ix3 0 r k)) (fun k => W10 (ix2 j (lo k))) + dot (H0 X H W2 W3 b4 b5 r) (fun k => W10 (ix2 j (hi k))) := by
  rw [val_main_v34_apply]
  have e : ∀ k : Fin 2048, val_main_v32 (F := Ideal) X H W2 W3 b4 b5 (lidx_main_v34 (ix2 r j) k) * val_main_v33 (F := Ideal) W10 (ridx_main_v34 (ix2 r j) k)
      = (fun k : Fin 2048 => val_main_v32 (F := Ideal) X H W2 W3 b4 b5 (ix2 r k)) k * (fun k : Fin 2048 => W10 (ix2 j k)) k := fun k => by
    have el : lidx_main_v34 (ix2 r j) k = ix2 r k := funext fun a => Fin.ext (by match a with | ⟨0, _⟩ => rfl | ⟨1, _⟩ => rfl)
    have er : ridx_main_v34 (ix2 r j) k = ix2 k j := funext fun a => Fin.ext (by match a with | ⟨0, _⟩ => rfl | ⟨1, _⟩ => rfl)
    rw [el, er, v33_at]
  refine (Finset.sum_congr rfl fun k _ => e k).trans ((sum_split _ _).trans ?_)
  exact congrArg₂ (· + ·)
    (congrArg₂ dot (funext fun k => v32_lo X H W2 W3 b4 b5 r k) rfl)
    (congrArg₂ dot (funext fun k => v32_hi X H W2 W3 b4 b5 r k) rfl)

theorem logits_at (r j : Fin 4096) : val_main_v37 (F := Ideal) X H W2 W3 b4 b5 W10 b11 (ix2 r j) = L X H W2 W3 b4 b5 W10 b11 r j := by
  rw [val_main_v37_apply, v34_at, v36_at]
  rfl

/-! ## The row-wise log_softmax -/

/-- The reduced index `r` with column `k` put back on the dropped axis is `(r, k)`. -/
theorem lift_row (h : S4096x4096.Reduces [1] S4096) (r k : Fin 4096) : h.lift (ix1 r) k = ix2 r k := by
  funext c
  apply Fin.ext
  match c with
  | ⟨0, _⟩ => rfl
  | ⟨1, _⟩ => rfl

/-- The row maximum the reference folds from `-∞` is the largest logit of the row. -/
theorem rowmax_at (r : Fin 4096) :
    val_main_call0_v0 (F := Ideal) X H W2 W3 b4 b5 W10 b11 (ix1 r) = rowMax (L X H W2 W3 b4 b5 W10 b11 r) := by
  have h : S4096x4096.Reduces [1] S4096 := by decide
  have hf : (val_main_v37 (F := Ideal) X H W2 W3 b4 b5 W10 b11 ∘ h.lift (ix1 r)) = L X H W2 W3 b4 b5 W10 b11 r :=
    funext fun (k : Fin 4096) => by
      show val_main_v37 (F := Ideal) X H W2 W3 b4 b5 W10 b11 (h.lift (ix1 r) k) = _
      rw [lift_row h r k]
      exact logits_at X H W2 W3 b4 b5 W10 b11 r k
  unfold val_main_call0_v0
  rw [Host.reduce_eq_fold_single FloatOps.maximumf _ _ _ h _, hf]
  rfl

/-- Taking the maximum with `-∞` once more changes nothing. -/
theorem v2max_at (r : Fin 4096) :
    val_main_call0_v2 (F := Ideal) X H W2 W3 b4 b5 W10 b11 (ix1 r) = rowMax (L X H W2 W3 b4 b5 W10 b11 r) := by
  rw [val_main_call0_v2_apply, val_main_call0_v1_apply, val_main_call0_cst_0_apply, rowmax_at]
  exact max_negInf _

theorem call0_v4_at (r j : Fin 4096) :
    val_main_call0_v4 (F := Ideal) X H W2 W3 b4 b5 W10 b11 (ix2 r j) = rowMax (L X H W2 W3 b4 b5 W10 b11 r) := by
  rw [val_main_call0_v4_apply, val_main_call0_v3_apply]
  have e : idx_main_call0_v3 (idx_main_call0_v4 (ix2 r j)) = ix1 r := funext fun a => Fin.ext (by match a with | ⟨0, _⟩ => rfl)
  rw [e, v2max_at]

theorem call0_v5_at (r j : Fin 4096) :
    val_main_call0_v5 (F := Ideal) X H W2 W3 b4 b5 W10 b11 (ix2 r j)
      = L X H W2 W3 b4 b5 W10 b11 r j - rowMax (L X H W2 W3 b4 b5 W10 b11 r) := by
  rw [val_main_call0_v5_apply, logits_at, call0_v4_at]
  rfl

theorem call0_v6_at (r j : Fin 4096) :
    val_main_call0_v6 (F := Ideal) X H W2 W3 b4 b5 W10 b11 (ix2 r j)
      = Ideal.exp (L X H W2 W3 b4 b5 W10 b11 r j - rowMax (L X H W2 W3 b4 b5 W10 b11 r)) := by
  rw [val_main_call0_v6_apply, call0_v5_at]
  rfl

/-- The row's sum of exponentials, added up from the constant 0. -/
theorem call0_v7_at (r : Fin 4096) :
    val_main_call0_v7 (F := Ideal) X H W2 W3 b4 b5 W10 b11 (ix1 r)
      = ∑ k : Fin 4096, Ideal.exp (L X H W2 W3 b4 b5 W10 b11 r k - rowMax (L X H W2 W3 b4 b5 W10 b11 r)) := by
  rw [val_main_call0_v7_apply, val_main_call0_cst_1_apply]
  show Ideal.ofBits .f32 0x00000000#32 + _ = _
  rw [Ideal.ofBits_zero_f32, zero_add]
  refine Finset.sum_congr rfl fun k _ => ?_
  have e : idx_main_call0_v7 (ix1 r) k = ix2 r k := funext fun a => Fin.ext (by match a with | ⟨0, _⟩ => rfl | ⟨1, _⟩ => rfl)
  rw [e, call0_v6_at]

theorem call0_v10_at (r j : Fin 4096) :
    val_main_call0_v10 (F := Ideal) X H W2 W3 b4 b5 W10 b11 (ix2 r j)
      = Ideal.log (∑ k : Fin 4096, Ideal.exp (L X H W2 W3 b4 b5 W10 b11 r k - rowMax (L X H W2 W3 b4 b5 W10 b11 r))) := by
  rw [val_main_call0_v10_apply, val_main_call0_v9_apply, val_main_call0_v8_apply]
  have e : idx_main_call0_v8 (idx_main_call0_v10 (ix2 r j)) = ix1 r := funext fun a => Fin.ext (by match a with | ⟨0, _⟩ => rfl)
  rw [e, call0_v7_at]
  rfl

theorem out_eq : val_main_v38 (F := Ideal) X H W2 W3 b4 b5 W10 b11 = Out X H W2 W3 b4 b5 W10 b11 := by
  funext i
  obtain ⟨r, j, rfl⟩ : ∃ r j : Fin 4096, i = ix2 r j := ⟨i 0, i 1, eq_ix2 i⟩
  rw [Out_ix2, val_main_v38_apply, call0_v5_at, call0_v10_at]
  rfl

/-! ## The stacked hidden states -/

theorem hid_eq : val_main_v31 (F := Ideal) X H W2 W3 b4 b5 W6 W7 b8 b9 = Hid X H W2 W3 b4 b5 W6 W7 b8 b9 := by
  funext i
  obtain ⟨l, r, j, rfl⟩ : ∃ (l : Fin 2) (r : Fin 4096) (j : Fin 1024), i = ix3 l r j := ⟨i 0, i 1, i 2, eq_ix3 i⟩
  have e29 : idx_main_v29 (ix3 (0 : Fin 1) r j) = ix2 r j :=
    funext fun a => Fin.ext (by match a with | ⟨0, _⟩ => rfl | ⟨1, _⟩ => rfl)
  have e30 : idx_main_v30 (ix3 (0 : Fin 1) r j) = ix2 r j :=
    funext fun a => Fin.ext (by match a with | ⟨0, _⟩ => rfl | ⟨1, _⟩ => rfl)
  match l with
  | ⟨0, _⟩ =>
    refine Eq.trans ?_ (Hid_ix3_zero X H W2 W3 b4 b5 W6 W7 b8 b9 r j).symm
    unfold val_main_v31
    refine (concatenate_pair_apply_left (t := S2x4096x1024) (s₁ := S1x4096x1024) (s₂ := S1x4096x1024) _ _ _ _ (ix3 (0 : Fin 2) r j) rfl (ix3 (0 : Fin 1) r j) (fun b => ?_)).trans ?_
    · match b with
      | ⟨0, _⟩ => rfl
      | ⟨1, _⟩ => rfl
      | ⟨2, _⟩ => rfl
    · rw [val_main_v29_apply, e29]
      exact h0_at X H W2 W3 b4 b5 r j
  | ⟨1, _⟩ =>
    refine Eq.trans ?_ (Hid_ix3_one X H W2 W3 b4 b5 W6 W7 b8 b9 r j).symm
    unfold val_main_v31
    refine (concatenate_pair_apply_right (t := S2x4096x1024) (s₁ := S1x4096x1024) (s₂ := S1x4096x1024) _ _ _ _ (ix3 (1 : Fin 2) r j) rfl rfl (ix3 (0 : Fin 1) r j) (fun b hb => ?_) ?_).trans ?_
    · match b with
      | ⟨0, _⟩ => exact absurd rfl hb
      | ⟨1, _⟩ => rfl
      | ⟨2, _⟩ => rfl
    · rfl
    · rw [val_main_v30_apply, e30]
      exact h1_at X H W2 W3 W6 W7 b4 b5 b8 b9 r j

end Cert.RnnRef
end
-- ==== Proof.lean ====
/-
  The kernel — one fused launch over 32 blocks of 128 batch rows that computes a two-layer tanh recurrent cell, the output
  projection of the joined input and new first hidden state, and a row-wise log_softmax — against the plain reference, at the
  ideal values (extended reals, exact operations, changes of float format the identity).

  Both programs compute, for every batch row, the same function of the twelve argument arrays (the specification module): the
  kernel adds each cell's two matrix products first and the two biases to each other first, where the reference adds the
  four terms left to right — the same sum, since addition of extended reals is commutative and associative; the kernel
  multiplies the input row and the new hidden row by the first and last 1024 columns of the output weights separately, where
  the reference joins the two rows and multiplies once — a sum over 2048 columns split in two; and the reference takes one
  more maximum with minus infinity before subtracting the row maximum, which changes nothing. No step needs the inputs to be
  finite, so the precondition is never opened.

  The kernel program's run with its two results read as that function is the kernel side's last module; the reference's is
  its run re-stated through the one-operation-at-a-time reading of its program and the row lemmas. The three frame claims are
  the generated frame runs (the reference's with its results dropped), and the idealization rewrote nothing.
-/
import proofs.«100841_j6451040879094_2_alg».proof.Defs
import proofs.«100841_j6451040879094_2_alg».proof.Proof.Gen.Kernel
import proofs.«100841_j6451040879094_2_alg».proof.Proof.Gen.Kernel.Frame
import proofs.«100841_j6451040879094_2_alg».proof.Proof.Gen.KernelIdeal
import proofs.«100841_j6451040879094_2_alg».proof.Proof.Gen.KernelIdeal.Frame
import proofs.«100841_j6451040879094_2_alg».proof.Proof.Gen.ReferenceIdeal
import proofs.«100841_j6451040879094_2_alg».proof.Proof.Gen.Pre_finite_inputs
import proofs.«100841_j6451040879094_2_alg».proof.Proof.KerRun
import proofs.«100841_j6451040879094_2_alg».proof.Proof.RefRows
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- From memories that agree on the twelve arguments both programs end with the model's log-probabilities in their first
    result and its stacked hidden states in their second. -/
theorem algebraic : Cert.algebraic_KernelIdeal_ReferenceIdeal := by
  intro m ρ m' ρ' _ hagree
  refine ⟨fun c => Cert.RnnKer.G14 m c, fun c => Cert.RnnKer.GHid m c, Cert.RnnKer.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨a0, a1, a2, a3, a4, a5, a6, a7, a8, a9, a10, a11⟩ := hagree c
    refine (Cert.ReferenceIdeal.ReadP.val_main_v38_eq (F := Ideal) m' c).trans ?_
    rw [a0, a1, a2, a3, a4, a5, a10, a11]
    exact Cert.RnnRef.out_eq _ _ _ _ _ _ _ _
  · obtain ⟨a0, a1, a2, a3, a4, a5, a6, a7, a8, a9, a10, a11⟩ := hagree c
    refine (Cert.ReferenceIdeal.ReadP.val_main_v31_eq (F := Ideal) _ _ _ _ _ _ _ _ _ _).trans ?_
    rw [a0, a1, a2, a3, a4, a5, a6, a7, a8, a9]
    exact Cert.RnnRef.hid_eq _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
